-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x10000 : Shape := ⟨3, ![16, 512, 10000]⟩
abbrev S16x512 : Shape := ⟨2, ![16, 512]⟩
abbrev S_ : Shape := ⟨0, ![]⟩

class Facts : Prop where
  bcast_S_S16x512x10000 : S_.BroadcastsInDim S16x512x10000 (![] : Fin 0 → Fin S16x512x10000.rank)
  reducesTo_S16x512x10000_S_d0_1_2 : S16x512x10000.ReducesTo [0, 1, 2] S_
  h_S_ : 0 < S_.numel

variable [Facts]

def fn {F : FTy → Type} [FloatOps F] (main_arg0 : FVec F S16x512x10000 .f32) (main_arg1 : IVec S16x512 32) : IVec S_ 1 :=
  let main_v0 : FVec F S16x512x10000 .f32 := Host.absf main_arg0
  let main_cst : FVec F S_ .f32 := constant S_ .f32 0x7F800000#32
  let main_v1 : FVec F S16x512x10000 .f32 := broadcastInDim S16x512x10000 ![] bcast_S_S16x512x10000 main_cst
  let main_v2 : IVec S16x512x10000 1 := cmpf .olt main_v0 main_v1
  let main_c : IVec S_ 1 := constantI S_ 1 1#1
  let main_v3 : IVec S_ 1 := (fun x v => Host.reduce IntOp.andi x v reducesTo_S16x512x10000_S_d0_1_2 h_S_) main_v2 main_c
  main_v3
-- ==== Kernel.lean ====
abbrev S16x512x10000 : Shape := ⟨3, ![16, 512, 10000]⟩
abbrev S16x512 : Shape := ⟨2, ![16, 512]⟩
abbrev S8192x10000 : Shape := ⟨2, ![8192, 10000]⟩
abbrev S8192x1 : Shape := ⟨2, ![8192, 1]⟩
abbrev S128x10000 : Shape := ⟨2, ![128, 10000]⟩
abbrev S128x1 : Shape := ⟨2, ![128, 1]⟩
abbrev S128 : Shape := ⟨1, ![128]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S16x512x10000, .f32⟩
  | .hbm, ⟨1, _⟩ => ⟨S16x512, .i32⟩
  | .hbm, ⟨2, _⟩ => ⟨S8192x10000, .f32⟩
  | .hbm, ⟨3, _⟩ => ⟨S8192x1, .i32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S128x10000, .f32⟩
  | .local _ .vmem, ⟨1, _⟩ => ⟨S128x10000, .f32⟩
  | .local _ .vmem, ⟨2, _⟩ => ⟨S128x1, .i32⟩
  | .local _ .vmem, ⟨3, _⟩ => ⟨S128x1, .i32⟩
  | .local _ .vmem, ⟨4, _⟩ => ⟨S128x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | _, _ => ⟨S16x512x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x512x10000_S8192x10000 : S16x512x10000.ShapeCasts S8192x10000
  shapeCasts_S16x512_S8192x1 : S16x512.ShapeCasts S8192x1
  inb_S128x10000_S128x10000_0_0 : ∀ a, (![0, 0] : Fin 2 → Nat) a + S128x10000.size a ≤ S128x10000.size a
  h_S128x10000 : 0 < S128x10000.numel
  shapeCasts_S128x10000_S128x10000 : S128x10000.ShapeCasts S128x10000
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x10000_S128 : S128x10000.Reduces [1] S128
  shapeCasts_S128_S128x1 : S128.ShapeCasts S128x1
  broadcasts_S128x1_S128x10000 : S128x1.Broadcasts S128x10000
  iota_S128x10000_d1_w32 : S128x10000.Iotas .tc 32 [1]
  natLt_1_32 : 1 < 32
  reducesTo_S8192x1_S_d0_1 : S8192x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x10000.size a ≤ S8192x10000.size a
  hwx0_0 : ∀ i : grid0.Coords, EltTy.bits .f32 = 32 ∨ (Rect.block (s := S8192x10000) S128x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S8192x1.size a
  hwx0_3 : ∀ i : grid0.Coords, EltTy.bits .f32 = 32 ∨ (Rect.block (s := S8192x1) S128x1.size (cc0_transform_3 i) (hinb0_3 i)).WholeWords (EltTy.packing .f32)

variable [Facts₀]

abbrev win0_0 : Pipeline.Window sig grid0 :=
  Pipeline.Window.ofSpec (Memref.whole main_v0) S128x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S128x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x10000 : Shape := ⟨3, ![16, 512, 10000]⟩
abbrev S16x512 : Shape := ⟨2, ![16, 512]⟩
abbrev S_ : Shape := ⟨0, ![]⟩
abbrev S16x512x1 : Shape := ⟨3, ![16, 512, 1]⟩
abbrev S1x1x10000 : Shape := ⟨3, ![1, 1, 10000]⟩

abbrev nBuf : Space → Nat
  | .hbm => 55
  | .vmem => 0
  | .smem => 0
  | _ => 0

abbrev bufTy : (tb : Table) → Fin (tcTables nBuf tb) → BufTy
  | .hbm, ⟨0, _⟩ => ⟨S16x512x10000, .f32⟩
  | .hbm, ⟨1, _⟩ => ⟨S16x512, .i32⟩
  | .hbm, ⟨2, _⟩ => ⟨S_, .i32⟩
  | .hbm, ⟨3, _⟩ => ⟨S16x512, .i32⟩
  | .hbm, ⟨4, _⟩ => ⟨S16x512, .i1⟩
  | .hbm, ⟨5, _⟩ => ⟨S_, .i32⟩
  | .hbm, ⟨6, _⟩ => ⟨S_, .i32⟩
  | .hbm, ⟨7, _⟩ => ⟨S16x512, .i32⟩
  | .hbm, ⟨8, _⟩ => ⟨S16x512, .i32⟩
  | .hbm, ⟨9, _⟩ => ⟨S16x512x1, .i32⟩
  | .hbm, ⟨10, _⟩ => ⟨S1x1x10000, .i32⟩
  | .hbm, ⟨11, _⟩ => ⟨S16x512x10000, .i32⟩
  | .hbm, ⟨12, _⟩ => ⟨S16x512x10000, .i32⟩
  | .hbm, ⟨13, _⟩ => ⟨S16x512x10000, .i1⟩
  | .hbm, ⟨14, _⟩ => ⟨S16x512x10000, .f32⟩
  | .hbm, ⟨15, _⟩ => ⟨S_, .f32⟩
  | .hbm, ⟨16, _⟩ => ⟨S16x512x10000, .f32⟩
  | .hbm, ⟨17, _⟩ => ⟨S16x512x10000, .f32⟩
  | .hbm, ⟨18, _⟩ => ⟨S_, .f32⟩
  | .hbm, ⟨19, _⟩ => ⟨S16x512x10000, .f32⟩
  | .hbm, ⟨20, _⟩ => ⟨S16x512x10000, .f32⟩
  | .hbm, ⟨21, _⟩ => ⟨S_, .f32⟩
  | .hbm, ⟨22, _⟩ => ⟨S16x512, .f32⟩
  | .hbm, ⟨23, _⟩ => ⟨S_, .f32⟩
  | .hbm, ⟨24, _⟩ => ⟨S16x512, .f32⟩
  | .hbm, ⟨25, _⟩ => ⟨S16x512, .f32⟩
  | .hbm, ⟨26, _⟩ => ⟨S16x512x1, .f32⟩
  | .hbm, ⟨27, _⟩ => ⟨S16x512x10000, .f32⟩
  | .hbm, ⟨28, _⟩ => ⟨S16x512x10000, .f32⟩
  | .hbm, ⟨29, _⟩ => ⟨S16x512x10000, .f32⟩
  | .hbm, ⟨30, _⟩ => ⟨S_, .f32⟩
  | .hbm, ⟨31, _⟩ => ⟨S16x512, .f32⟩
  | .hbm, ⟨32, _⟩ => ⟨S16x512x1, .f32⟩
  | .hbm, ⟨33, _⟩ => ⟨S16x512x1, .f32⟩
  | .hbm, ⟨34, _⟩ => ⟨S16x512x10000, .f32⟩
  | .hbm, ⟨35, _⟩ => ⟨S16x512x10000, .f32⟩
  | .hbm, ⟨36, _⟩ => ⟨S16x512x10000, .f32⟩
  | .hbm, ⟨37, _⟩ => ⟨S_, .f32⟩
  | .hbm, ⟨38, _⟩ => ⟨S16x512x10000, .f32⟩
  | .hbm, ⟨39, _⟩ => ⟨S16x512x10000, .f32⟩
  | .hbm, ⟨40, _⟩ => ⟨S_, .f32⟩
  | .hbm, ⟨41, _⟩ => ⟨S16x512x10000, .f32⟩
  | .hbm, ⟨42, _⟩ => ⟨S16x512x10000, .f32⟩
  | .hbm, ⟨43, _⟩ => ⟨S16x512x10000, .f32⟩
  | .hbm, ⟨44, _⟩ => ⟨S16x512x10000, .f32⟩
  | .hbm, ⟨45, _⟩ => ⟨S_, .f32⟩
  | .hbm, ⟨46, _⟩ => ⟨S16x512, .f32⟩
  | .hbm, ⟨47, _⟩ => ⟨S16x512, .f32⟩
  | .hbm, ⟨48, _⟩ => ⟨S16x512, .f32⟩
  | .hbm, ⟨49, _⟩ => ⟨S16x512, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S16x512x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_call2_cst : Ref sig .tc := ⟨.hbm, 21, rfl⟩
abbrev main_call2_v0 : Ref sig .tc := ⟨.hbm, 22, rfl⟩
abbrev main_call2_cst_0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_v5 : Ref sig .tc := ⟨.hbm, 28, rfl⟩
abbrev main_call2_v6 : Ref sig .tc := ⟨.hbm, 29, rfl⟩
abbrev main_call2_cst_1 : Ref sig .tc := ⟨.hbm, 30, rfl⟩
abbrev main_call2_v7 : Ref sig .tc := ⟨.hbm, 31, rfl⟩
abbrev main_call2_v8 : Ref sig .tc := ⟨.hbm, 32, rfl⟩
abbrev main_call2_v9 : Ref sig .tc := ⟨.hbm, 33, rfl⟩
abbrev main_call2_v10 : Ref sig .tc := ⟨.hbm, 34, rfl⟩
abbrev main_v8 : Ref sig .tc := ⟨.hbm, 35, rfl⟩
abbrev main_v9 : Ref sig .tc := ⟨.hbm, 36, rfl⟩
abbrev main_cst_2 : Ref sig .tc := ⟨.hbm, 37, rfl⟩
abbrev main_v10 : Ref sig .tc := ⟨.hbm, 38, rfl⟩
abbrev main_v11 : Ref sig .tc := ⟨.hbm, 39, rfl⟩
abbrev main_cst_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_cst_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_5 : Ref sig .tc := ⟨.hbm, 50, rfl⟩
abbrev main_v20 : Ref sig .tc := ⟨.hbm, 51, rfl⟩
abbrev main_cst_6 : Ref sig .tc := ⟨.hbm, 52, rfl⟩
abbrev main_v21 : Ref sig .tc := ⟨.hbm, 53, rfl⟩
abbrev main_v22 : Ref sig .tc := ⟨.hbm, 54, rfl⟩

abbrev nD : Nat := 1
abbrev τ : Topo := Topo.v7x

variable {F : FTy → Type} [FloatOps F]

class Facts₀ : Prop where
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x10000_0_1_2 : S16x512x1.BroadcastsInDim S16x512x10000 (![0, 1, 2] : Fin 3 → Fin S16x512x10000.rank)
  bcast_S1x1x10000_S16x512x10000_0_1_2 : S1x1x10000.BroadcastsInDim S16x512x10000 (![0, 1, 2] : Fin 3 → Fin S16x512x10000.rank)
  bcast_S_S16x512x10000 : S_.BroadcastsInDim S16x512x10000 (![] : Fin 0 → Fin S16x512x10000.rank)
  reducesTo_S16x512x10000_S16x512_d2 : S16x512x10000.ReducesTo [2] S16x512
  h_S_ : 0 < S_.numel
  reducesTo_S16x512_S_d0_1 : S16x512.ReducesTo [0, 1] S_

variable [Facts₀]

class Facts : Prop extends Facts₀ where

variable [Facts]
-- ==== Proof.Spec.lean ====
/-
  Token-level cross entropy with label smoothing and a focal weight, per row of 10000 class scores and one
  integer label, written twice over the extended reals: once with the softmax probability as the quotient
  exp(x - m) / s and the cube as a product (`termK`), once with the probability as exp of the log-probability and
  the cube as a power with exponent 3 (`termR`). For a row of finite scores the two agree class by class.
-/
import Idealize.ShloMosaic.PureOps.Ideal.Laws
import Idealize.ShloMosaic.Lib.ValueIdx

noncomputable section

namespace Cert.CE

open Idealize.ShloMosaic Idealize.ShloMosaic.ValueIdx

/-- A row's maximum, folded from the word of -∞. -/
def rowMax (r : Fin 10000 → EReal) : EReal :=
  (Finset.univ : Finset (Fin 10000)).fold max (Ideal.ofBits .f32 0xFF800000#32) r

/-- A score less the row's maximum. -/
def shifted (r : Fin 10000 → EReal) (k : Fin 10000) : EReal := r k - rowMax r

/-- The row's sum of exponentials of shifted scores. -/
def expSum (r : Fin 10000 → EReal) : EReal := ∑ k : Fin 10000, Ideal.exp (shifted r k)

/-- The log-probability of class `k`. -/
def logp (r : Fin 10000 → EReal) (k : Fin 10000) : EReal := shifted r k - Ideal.log (expSum r)

/-- The label is not the ignored one (-1). -/
def validBit (tg : BitVec 32) : BitVec 1 := IntOp.cmpi .ne tg 4294967295#32

/-- The label, or 0 where it is ignored. -/
def safeT (tg : BitVec 32) : BitVec 32 := Scalar.select (validBit tg) tg 0#32

/-- Class `k` against the label, the class on the left. -/
def hotK (tg : BitVec 32) (k : Fin 10000) : BitVec 1 := IntOp.cmpi .eq (BitVec.ofNat 32 k.val) (safeT tg)

/-- Class `k` against the label, the label on the left. -/
def hotR (tg : BitVec 32) (k : Fin 10000) : BitVec 1 := IntOp.cmpi .eq (safeT tg) (BitVec.ofNat 32 k.val)

/-- The smoothed weight of class `k`: s/C plus (1 - s) at the label. -/
def weightK (tg : BitVec 32) (k : Fin 10000) : EReal :=
  Ideal.ofBits .f32 0x3727C5AC#32
    + Scalar.select (hotK tg k) (Ideal.ofBits .f32 0x3F666666#32) (Ideal.ofBits .f32 0x00000000#32)

/-- The same weight as one-hot times (1 - s) plus s/C. -/
def weightR (tg : BitVec 32) (k : Fin 10000) : EReal :=
  (((hotR tg k).toNat : ℝ) : EReal) * Ideal.ofBits .f32 0x3F666666#32 + Ideal.ofBits .f32 0x3727C5AC#32

/-- One class's term with the probability a quotient and the cube a product. -/
def termK (r : Fin 10000 → EReal) (tg : BitVec 32) (k : Fin 10000) : EReal :=
  ((((Ideal.ofBits .f32 0x3F800000#32 - Ideal.div (Ideal.exp (shifted r k)) (expSum r))
        * (Ideal.ofBits .f32 0x3F800000#32 - Ideal.div (Ideal.exp (shifted r k)) (expSum r)))
      * (Ideal.ofBits .f32 0x3F800000#32 - Ideal.div (Ideal.exp (shifted r k)) (expSum r)))
    * logp r k) * weightK tg k

/-- One class's term with the probability exp(log p) and the cube a power. -/
def termR (r : Fin 10000 → EReal) (tg : BitVec 32) (k : Fin 10000) : EReal :=
  (Ideal.pow (Ideal.ofBits .f32 0x3F800000#32 - Ideal.exp (logp r k)) (Ideal.ofBits .f32 0x40400000#32)
    * logp r k) * weightR tg k

/-- 1 where the label counts, 0 where it is ignored: the bit widened to a word and read signed. -/
def maskK (tg : BitVec 32) : EReal := ((((validBit tg).setWidth 32).toInt : ℝ) : EReal)

/-- The same, the bit read unsigned. -/
def maskR (tg : BitVec 32) : EReal := (((validBit tg).toNat : ℝ) : EReal)

/-- A token's masked loss, the sign by subtraction from zero. -/
def perTokK (r : Fin 10000 → EReal) (tg : BitVec 32) : EReal :=
  (Ideal.ofBits .f32 0x00000000#32 - ∑ k : Fin 10000, termK r tg k) * maskK tg

/-- A token's masked loss, the sign by negation of zero plus the sum. -/
def perTokR (r : Fin 10000 → EReal) (tg : BitVec 32) : EReal :=
  (-(Ideal.ofBits .f32 0x00000000#32 + ∑ k : Fin 10000, termR r tg k)) * maskR tg

/-- The word 0x3F800000 is the real number 1. -/
private theorem one_eq : Ideal.ofBits .f32 0x3F800000#32 = ((1 : ℝ) : EReal) := by
  simp [Ideal.ofBits, Ideal.ieee, -EReal.coe_mul]; norm_num

/-- The word 0x40400000 is the real number 3. -/
private theorem three_eq : Ideal.ofBits .f32 0x40400000#32 = ((3 : ℝ) : EReal) := by
  simp [Ideal.ofBits, Ideal.ieee, -EReal.coe_mul]; norm_num

/-- The embedding of the reals into the extended reals carries a finite sum to the sum. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of -∞ is the bottom of the extended reals. -/
theorem neginf_eq_bot : Ideal.ofBits .f32 0xFF800000#32 = ⊥ := by
  simp [Ideal.ofBits, Ideal.ieee]

/-- The maximum of -∞ and a row's maximum is the row's maximum. -/
theorem max_neginf_rowMax (r : Fin 10000 → EReal) :
    max (Ideal.ofBits .f32 0xFF800000#32) (rowMax r) = rowMax r := by
  rw [neginf_eq_bot]
  exact max_eq_right bot_le

/-- The two readings of the mask bit agree. -/
theorem mask_eq (tg : BitVec 32) : maskR tg = maskK tg := by
  unfold maskR maskK
  rcases BitVec.eq_zero_or_eq_one (validBit tg) with h | h <;> rw [h] <;> simp

/-- An equality test of two words does not depend on the order of its operands. -/
private theorem cmpi_eq_comm (a b : BitVec 32) : IntOp.cmpi .eq a b = IntOp.cmpi .eq b a := by
  unfold IntOp.cmpi
  exact congrArg BitVec.ofBool BEq.comm

/-- The two one-hot bits agree. -/
private theorem hot_eq (tg : BitVec 32) (k : Fin 10000) : hotR tg k = hotK tg k :=
  cmpi_eq_comm _ _

/-- For a bit b: b · c + s = s + (c if b = 1, else 0). -/
private theorem weight_bit (b : BitVec 1) (c s : EReal) :
    (((b.toNat : ℝ)) : EReal) * c + s = s + Scalar.select b c (Ideal.ofBits .f32 0x00000000#32) := by
  rcases BitVec.eq_zero_or_eq_one b with h | h <;> subst h
  · rw [select_zero, Ideal.ofBits_zero_f32, add_zero]; simp
  · rw [select_one, add_comm]; simp

/-- The two forms of the smoothed weight agree, for every label. -/
private theorem weight_eq (tg : BitVec 32) (k : Fin 10000) : weightR tg k = weightK tg k := by
  unfold weightR weightK
  rw [hot_eq]
  exact weight_bit _ _ _

/-- The maximum of a row of reals is a real: it is at least the first score, and below +∞. -/
private theorem rowMax_coe (y : Fin 10000 → ℝ) :
    ∃ M : ℝ, rowMax (fun k => (y k : EReal)) = (M : EReal) := by
  have hbot : rowMax (fun k => (y k : EReal)) ≠ ⊥ := by
    have h : ((y 0 : ℝ) : EReal) ≤ rowMax (fun k => (y k : EReal)) :=
      (Finset.le_fold_max _).mpr (Or.inr ⟨0, Finset.mem_univ _, le_rfl⟩)
    exact ne_bot_of_le_ne_bot (EReal.coe_ne_bot _) h
  have htop : rowMax (fun k => (y k : EReal)) ≠ ⊤ := by
    have h : rowMax (fun k => (y k : EReal)) < ⊤ := by
      unfold rowMax
      rw [Finset.fold_max_lt]
      exact ⟨by rw [neginf_eq_bot]; exact bot_lt_top, fun x _ => EReal.coe_lt_top _⟩
    exact h.ne
  exact ⟨_, (EReal.coe_toReal htop hbot).symm⟩

/-- A shifted score of a finite row is the real difference. -/
private theorem shifted_coe (y : Fin 10000 → ℝ) {M : ℝ}
    (hM : rowMax (fun k => (y k : EReal)) = (M : EReal)) (k : Fin 10000) :
    shifted (fun k => (y k : EReal)) k = ((y k - M : ℝ) : EReal) := by
  unfold shifted
  rw [hM]
  exact (EReal.coe_sub _ _).symm

/-- The sum of exponentials of a finite row is the real sum. -/
private theorem expSum_coe (y : Fin 10000 → ℝ) {M : ℝ}
    (hM : rowMax (fun k => (y k : EReal)) = (M : EReal)) :
    expSum (fun k => (y k : EReal)) = ((∑ k : Fin 10000, Real.exp (y k - M) : ℝ) : EReal) := by
  unfold expSum
  rw [coe_sum]
  exact Finset.sum_congr rfl (fun k _ => by rw [shifted_coe y hM k, Ideal.exp_coe])

/-- That real sum is positive: every term is, and there is one. -/
private theorem expSum_pos (y : Fin 10000 → ℝ) (M : ℝ) : 0 < ∑ k : Fin 10000, Real.exp (y k - M) :=
  Finset.sum_pos (fun k _ => Real.exp_pos _) ⟨0, Finset.mem_univ _⟩

/-- The log-probability of a finite row is the real x - m - log s. -/
private theorem logp_coe (y : Fin 10000 → ℝ) {M : ℝ}
    (hM : rowMax (fun k => (y k : EReal)) = (M : EReal)) (k : Fin 10000) :
    logp (fun k => (y k : EReal)) k
      = ((y k - M - Real.log (∑ k : Fin 10000, Real.exp (y k - M)) : ℝ) : EReal) := by
  unfold logp
  rw [shifted_coe y hM k, expSum_coe y hM, Ideal.log_coe, if_neg (not_le.mpr (expSum_pos y M))]
  exact (EReal.coe_sub _ _).symm

/-- The quotient of two reals, the divisor positive, is the real quotient. -/
private theorem div_coe_coe (e S : ℝ) (hS : 0 < S) :
    Ideal.div (e : EReal) (S : EReal) = ((e / S : ℝ) : EReal) := by
  rw [Ideal.div, if_neg (by exact_mod_cast hS.ne'), ← EReal.coe_inv, ← EReal.coe_mul, div_eq_mul_inv]

/-- exp (a - log s) = exp a / s for s > 0. -/
private theorem exp_sub_log (a S : ℝ) (hS : 0 < S) : Real.exp (a - Real.log S) = Real.exp a / S := by
  rw [Real.exp_sub, Real.exp_log hS]

/-- The power with exponent 3 of a real is the product of three copies. -/
private theorem pow_three (a : ℝ) :
    Ideal.pow (a : EReal) ((3 : ℝ) : EReal) = ((a : EReal) * (a : EReal)) * (a : EReal) := by
  rw [Ideal.pow_coe_coe, ← EReal.coe_mul, ← EReal.coe_mul]
  congr 1
  show a ^ (3 : ℝ) = a * a * a
  rw [show (3 : ℝ) = ((3 : ℕ) : ℝ) by norm_num, Real.rpow_natCast]
  ring

/-- Class by class the two forms of the term agree on a finite row. -/
private theorem term_eq (y : Fin 10000 → ℝ) (tg : BitVec 32) (k : Fin 10000) :
    termR (fun k => (y k : EReal)) tg k = termK (fun k => (y k : EReal)) tg k := by
  obtain ⟨M, hM⟩ := rowMax_coe y
  have hS := expSum_pos y M
  unfold termR termK
  rw [weight_eq, logp_coe y hM k, shifted_coe y hM k, expSum_coe y hM, Ideal.exp_coe, Ideal.exp_coe,
    div_coe_coe _ _ hS, exp_sub_log _ _ hS, one_eq, three_eq, ← EReal.coe_sub, pow_three]

/-- On a row of finite scores the two forms of a token's loss agree. -/
theorem perTok_eq (r : Fin 10000 → EReal) (hr : ∀ k, ∃ y : ℝ, r k = (y : EReal)) (tg : BitVec 32) :
    perTokR r tg = perTokK r tg := by
  choose y hy using hr
  obtain rfl : r = fun k => (y k : EReal) := funext hy
  have hs : ∑ k : Fin 10000, termR (fun k => (y k : EReal)) tg k
      = ∑ k : Fin 10000, termK (fun k => (y k : EReal)) tg k :=
    Finset.sum_congr rfl (fun k _ => term_eq y tg k)
  unfold perTokR perTokK
  rw [hs, mask_eq, Ideal.ofBits_zero_f32, zero_add, zero_sub]

/-- The flat row number of token (b, s). -/
def rowOf (j : (⟨2, ![16, 512]⟩ : Shape).Idx) : Fin 8192 :=
  ⟨(j 0).val * 512 + (j 1).val, by have h0 : (j 0).val < 16 := idx2_lt0 j; have h1 : (j 1).val < 512 := idx2_lt1 j; omega⟩

/-- A sum over 8192 = 16 · 512 rows is the double sum over quotient and remainder by 512. -/
private theorem sum_fin_rows (g : Fin 8192 → EReal) :
    ∑ a : Fin 8192, g a
      = ∑ a : Fin 16, ∑ b : Fin 512,
          g ⟨a.val * 512 + b.val, by have := a.isLt; have := b.isLt; omega⟩ := by
  have e : ∑ p : Fin 16 × Fin 512, g (finProdFinEquiv p) = ∑ a : Fin 8192, g a :=
    Equiv.sum_comp (finProdFinEquiv (m := 16) (n := 512)) g
  rw [← e, Fintype.sum_prod_type]
  refine Finset.sum_congr rfl (fun a _ => Finset.sum_congr rfl (fun b _ => ?_))
  congr 1
  apply Fin.ext
  simp [finProdFinEquiv]
  omega

/-- A sum over the 8192 rows of a one-column array is the sum over the 16 × 512 tokens. -/
theorem sum_rows (f : (⟨2, ![8192, 1]⟩ : Shape).Idx → EReal) :
    ∑ i : (⟨2, ![8192, 1]⟩ : Shape).Idx, f i
      = ∑ j : (⟨2, ![16, 512]⟩ : Shape).Idx, f (ix2 (rowOf j) (0 : Fin 1)) := by
  refine (sum_idx2 f).trans ?_
  refine Eq.trans ?_ (sum_idx2 (fun j => f (ix2 (rowOf j) (0 : Fin 1)))).symm
  have h1 : ∀ a : Fin 8192, ∑ b : Fin 1, f (ix2 a b) = f (ix2 a (0 : Fin 1)) :=
    fun a => Fin.sum_univ_one _
  rw [Finset.sum_congr rfl (fun a _ => h1 a)]
  exact sum_fin_rows (fun a => f (ix2 a (0 : Fin 1)))

end Cert.CE

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.KernelPay.lean ====
/-
  The kernel body's arithmetic on one block of 128 token rows, named piece by piece — the shifted scores, their
  exponentials, the row sums, the log-probabilities, one minus the probability, the smoothed weights, the mask — and
  each piece read at a row `p` and a class `k` as the corresponding function of the row of scores and of the
  row's label (module Spec). The two stored values are then the masked token loss and the mask of row `p`.
-/
import proofs.«113265_j39968965656966_2_alg».proof.Proof.Gen.KernelIdeal.Skeleton
import proofs.«113265_j39968965656966_2_alg».proof.Proof.Spec
import proofs.«113265_j39968965656966_2_alg».proof.Proof.LibLayout
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.Attn.Layout

section
variable (hred : S128x10000.Reduces [1] S128) (hφ : FKind.Formats .f32)
  (hmx : (0xFF800000#32 : BitVec 32) = FKind.maximumf.neutral .f32 hφ)
  (had : (0x00000000#32 : BitVec 32) = FKind.add.neutral .f32 hφ)
  (hsc : S128.ShapeCasts S128x1) (hbc : S128x1.Broadcasts S128x10000)
  (hio : S128x10000.Iotas .tc 32 [1]) (h132 : 1 < 32)

/-- Scores less their row's maximum. -/
def bShift (x0 : FVec Ideal S128x10000 .f32) : FVec Ideal S128x10000 .f32 :=
  subf x0 (broadcastTo S128x10000 (shapeCast S128x1 (multiReduction .maximumf [1] S128 x0 0xFF800000#32 hred hφ hmx) hsc) hbc)

/-- Their exponentials. -/
def bExp (x0 : FVec Ideal S128x10000 .f32) : FVec Ideal S128x10000 .f32 :=
  Idealize.ShloMosaic.exp (bShift hred hφ hmx hsc hbc x0)

/-- The row sums of the exponentials, as a column. -/
def bSum (x0 : FVec Ideal S128x10000 .f32) : FVec Ideal S128x1 .f32 :=
  shapeCast S128x1 (multiReduction .add [1] S128 (bExp hred hφ hmx hsc hbc x0) 0x00000000#32 hred hφ had) hsc

/-- The log-probabilities. -/
def bLogp (x0 : FVec Ideal S128x10000 .f32) : FVec Ideal S128x10000 .f32 :=
  subf (bShift hred hφ hmx hsc hbc x0)
    (broadcastTo S128x10000 (Idealize.ShloMosaic.log (bSum hred hφ hmx had hsc hbc x0)) hbc)

/-- One minus the probability, the probability a quotient. -/
def bQ (x0 : FVec Ideal S128x10000 .f32) : FVec Ideal S128x10000 .f32 :=
  subf (broadcast S128x10000 (Scalar.ofBits (F := Ideal) .f32 0x3F800000#32))
    (divf (bExp hred hφ hmx hsc hbc x0) (broadcastTo S128x10000 (bSum hred hφ hmx had hsc hbc x0) hbc))

/-- The label is not the ignored one. -/
def bValid (x1 : IVec S128x1 32) : IVec S128x1 1 := cmpi .ne x1 (broadcast S128x1 4294967295#32)

/-- The smoothed weights. -/
def bWeight (x1 : IVec S128x1 32) : FVec Ideal S128x10000 .f32 :=
  addf (broadcast S128x10000 (Scalar.ofBits (F := Ideal) .f32 0x3727C5AC#32))
    (select (cmpi .eq (iota .tc S128x10000 32 [1] hio)
        (broadcastTo S128x10000 (select (bValid x1) x1 (broadcast S128x1 0#32)) hbc))
      (broadcast S128x10000 (Scalar.ofBits (F := Ideal) .f32 0x3F666666#32))
      (broadcast S128x10000 (Scalar.ofBits (F := Ideal) .f32 0x00000000#32)))

/-- The mask as a float column. -/
def bMask (x1 : IVec S128x1 32) : FVec Ideal S128x1 .f32 := sitofp .f32 (extui 32 (bValid x1) h132)

/-- The class terms. -/
def bTerm (x0 : FVec Ideal S128x10000 .f32) (x1 : IVec S128x1 32) : FVec Ideal S128x10000 .f32 :=
  mulf (mulf (mulf (mulf (bQ hred hφ hmx had hsc hbc x0) (bQ hred hφ hmx had hsc hbc x0)) (bQ hred hφ hmx had hsc hbc x0))
    (bLogp hred hφ hmx had hsc hbc x0)) (bWeight hbc hio x1)

/-- The masked token losses, as a column. -/
def bPer (x0 : FVec Ideal S128x10000 .f32) (x1 : IVec S128x1 32) : FVec Ideal S128x1 .f32 :=
  mulf (subf (broadcast S128x1 (Scalar.ofBits (F := Ideal) .f32 0x00000000#32))
      (shapeCast S128x1 (multiReduction .add [1] S128 (bTerm hred hφ hmx had hsc hbc hio x0 x1) 0x00000000#32 hred hφ had) hsc))
    (bMask h132 x1)

/-! ### Each piece at row `p`, class `k` -/

variable (x0 : FVec Ideal S128x10000 .f32) (x1 : IVec S128x1 32) (p : Fin 128)

/-- A row's maximum as the body takes it is the fold of max over the row. -/
theorem rowMax_apply : multiReduction .maximumf [1] S128 x0 0xFF800000#32 hred hφ hmx (ix1 p) = Cert.CE.rowMax (fun k => x0 (ix2 p k)) := by
  refine (Ideal.multiReduction_maximumf_single x0 0xFF800000#32 hred hφ hmx (ix1 p)).trans ?_
  unfold Cert.CE.rowMax
  exact congrArg (fun f => Finset.fold max (Ideal.ofBits .f32 0xFF800000#32) f (Finset.univ : Finset (Fin 10000)))
    (funext fun k => congrArg x0 (lift_row hred p k))

theorem bShift_apply (k : Fin 10000) : bShift hred hφ hmx hsc hbc x0 (ix2 p k) = Cert.CE.shifted (fun k => x0 (ix2 p k)) k := by
  show x0 (ix2 p k) - broadcastTo S128x10000 (shapeCast S128x1 (multiReduction .maximumf [1] S128 x0 0xFF800000#32 hred hφ hmx) hsc) hbc (ix2 p k) = _
  rw [broadcastTo_a1_ab_apply, shapeCast_a_a1_apply, rowMax_apply]
  rfl

theorem bExp_apply (k : Fin 10000) : bExp hred hφ hmx hsc hbc x0 (ix2 p k) = Ideal.exp (Cert.CE.shifted (fun k => x0 (ix2 p k)) k) :=
  congrArg Ideal.exp (bShift_apply hred hφ hmx hsc hbc x0 p k)

theorem bSum_apply (u : Fin 1) : bSum hred hφ hmx had hsc hbc x0 (ix2 p u) = Cert.CE.expSum (fun k => x0 (ix2 p k)) := by
  unfold bSum
  rw [shapeCast_a_a1_apply]
  refine (rowSum_apply _ hred hφ had p).trans ?_
  exact Finset.sum_congr rfl fun k _ => bExp_apply hred hφ hmx hsc hbc x0 p k

theorem bLogp_apply (k : Fin 10000) : bLogp hred hφ hmx had hsc hbc x0 (ix2 p k) = Cert.CE.logp (fun k => x0 (ix2 p k)) k := by
  show bShift hred hφ hmx hsc hbc x0 (ix2 p k)
      - broadcastTo S128x10000 (Idealize.ShloMosaic.log (bSum hred hφ hmx had hsc hbc x0)) hbc (ix2 p k) = _
  rw [broadcastTo_a1_ab_apply, bShift_apply]
  show _ - Ideal.log (bSum hred hφ hmx had hsc hbc x0 (ix2 p (0 : Fin 1))) = _
  rw [bSum_apply]
  rfl

theorem bQ_apply (k : Fin 10000) : bQ hred hφ hmx had hsc hbc x0 (ix2 p k)
    = Ideal.ofBits .f32 0x3F800000#32
      - Ideal.div (Ideal.exp (Cert.CE.shifted (fun k => x0 (ix2 p k)) k)) (Cert.CE.expSum (fun k => x0 (ix2 p k))) := by
  show Ideal.ofBits .f32 0x3F800000#32
      - Ideal.div (bExp hred hφ hmx hsc hbc x0 (ix2 p k)) (broadcastTo S128x10000 (bSum hred hφ hmx had hsc hbc x0) hbc (ix2 p k)) = _
  rw [broadcastTo_a1_ab_apply, bExp_apply, bSum_apply]

theorem bWeight_apply (k : Fin 10000) : bWeight hbc hio x1 (ix2 p k) = Cert.CE.weightK (x1 (ix2 p (0 : Fin 1))) k := by
  show Ideal.ofBits .f32 0x3727C5AC#32
      + Scalar.select (IntOp.cmpi .eq (iota .tc S128x10000 32 [1] hio (ix2 p k))
          (broadcastTo S128x10000 (select (bValid x1) x1 (broadcast S128x1 0#32)) hbc (ix2 p k)))
        (Ideal.ofBits .f32 0x3F666666#32) (Ideal.ofBits .f32 0x00000000#32) = _
  rw [broadcastTo_a1_ab_apply, iota_single_apply]
  rfl

theorem bMask_apply (u : Fin 1) : bMask h132 x1 (ix2 p u) = Cert.CE.maskK (x1 (ix2 p (0 : Fin 1))) := by
  have hu : u = 0 := Subsingleton.elim _ _
  subst hu
  rfl

theorem bTerm_apply (k : Fin 10000) : bTerm hred hφ hmx had hsc hbc hio x0 x1 (ix2 p k)
    = Cert.CE.termK (fun k => x0 (ix2 p k)) (x1 (ix2 p (0 : Fin 1))) k := by
  show (((bQ hred hφ hmx had hsc hbc x0 (ix2 p k) * bQ hred hφ hmx had hsc hbc x0 (ix2 p k)) * bQ hred hφ hmx had hsc hbc x0 (ix2 p k))
      * bLogp hred hφ hmx had hsc hbc x0 (ix2 p k)) * bWeight hbc hio x1 (ix2 p k) = _
  rw [bQ_apply, bLogp_apply, bWeight_apply]
  rfl

/-- The masked token loss of row `p`. -/
theorem bPer_apply (u : Fin 1) : bPer hred hφ hmx had hsc hbc hio h132 x0 x1 (ix2 p u)
    = Cert.CE.perTokK (fun k => x0 (ix2 p k)) (x1 (ix2 p (0 : Fin 1))) := by
  show (Ideal.ofBits .f32 0x00000000#32
      - shapeCast S128x1 (multiReduction .add [1] S128 (bTerm hred hφ hmx had hsc hbc hio x0 x1) 0x00000000#32 hred hφ had) hsc (ix2 p u))
      * bMask h132 x1 (ix2 p u) = _
  rw [shapeCast_a_a1_apply, bMask_apply]
  unfold Cert.CE.perTokK
  refine congrArg (fun s => (Ideal.ofBits .f32 0x00000000#32 - s) * Cert.CE.maskK (x1 (ix2 p (0 : Fin 1)))) ?_
  refine (rowSum_apply _ hred hφ had p).trans ?_
  exact Finset.sum_congr rfl fun k _ => bTerm_apply hred hφ hmx had hsc hbc hio x0 x1 p k

end

/-! ### The two stored values are these pieces -/

open Cert.KernelIdeal.Gen in
/-- The first stored value is the column of masked token losses of the block. -/
theorem pay4_eq (x0 : Vec Ideal S128x10000 .f32) (x1 : Vec Ideal S128x1 .i32) :
    k0_pay4 (F := Ideal) x0 x1
      = bPer reduces_S128x10000_S128 (.inl rfl) rfl rfl shapeCasts_S128_S128x1 broadcasts_S128x1_S128x10000
          iota_S128x10000_d1_w32 natLt_1_32 x0 x1 := by
  unfold k0_pay4 k0_pay3 k0_pay2 k0_pay1
  simp only [shapeCast_self]
  rfl

open Cert.KernelIdeal.Gen in
/-- The second stored value is the mask column. -/
theorem pay3_eq (x1 : Vec Ideal S128x1 .i32) : k0_pay3 (F := Ideal) x1 = bMask natLt_1_32 x1 := by
  unfold k0_pay3 k0_pay2 k0_pay1
  simp only [shapeCast_self]
  rfl

open Cert.KernelIdeal.Gen in
theorem pay4_apply (x0 : Vec Ideal S128x10000 .f32) (x1 : Vec Ideal S128x1 .i32) (p : Fin 128) (u : Fin 1) :
    k0_pay4 (F := Ideal) x0 x1 (ix2 p u) = Cert.CE.perTokK (fun k => x0 (ix2 p k)) (x1 (ix2 p (0 : Fin 1))) := by
  rw [pay4_eq]; exact bPer_apply _ _ _ _ _ _ _ _ x0 x1 p u

open Cert.KernelIdeal.Gen in
theorem pay3_apply (x1 : Vec Ideal S128x1 .i32) (p : Fin 128) (u : Fin 1) :
    k0_pay3 (F := Ideal) x1 (ix2 p u) = Cert.CE.maskK (x1 (ix2 p (0 : Fin 1))) := by
  rw [pay3_eq]; exact bMask_apply _ x1 p u

end Cert.KernelIdeal.Body

end
-- ==== Proof.Loss.lean ====
/-
  The mean masked token loss as ONE function of the score array [16, 512, 10000] and the label array [16, 512]:
  the sum of the tokens' masked losses over the sum of the masks, in the two spellings of module Spec. On an
  array of finite scores the two spellings are one number.
-/
import proofs.«113265_j39968965656966_2_alg».proof.Proof.Spec

noncomputable section

namespace Cert.CE

open Idealize.ShloMosaic Idealize.ShloMosaic.ValueIdx

/-- The index of token `j`'s score for class `k`. -/
def tokIdx (j : (⟨2, ![16, 512]⟩ : Shape).Idx) (k : Fin 10000) : (⟨3, ![16, 512, 10000]⟩ : Shape).Idx :=
  ix3 (⟨(j 0).val, idx2_lt0 j⟩ : Fin 16) (⟨(j 1).val, idx2_lt1 j⟩ : Fin 512) k

/-- The mean loss, each token's loss with the probability a quotient. -/
def lossK (x : (⟨3, ![16, 512, 10000]⟩ : Shape).Idx → EReal) (tg : (⟨2, ![16, 512]⟩ : Shape).Idx → BitVec 32) : EReal :=
  Ideal.div
    (Ideal.ofBits .f32 0x00000000#32 + ∑ j : (⟨2, ![16, 512]⟩ : Shape).Idx, perTokK (fun k => x (tokIdx j k)) (tg j))
    (Ideal.ofBits .f32 0x00000000#32 + ∑ j : (⟨2, ![16, 512]⟩ : Shape).Idx, maskK (tg j))

/-- The mean loss, each token's loss with the probability the exponential of the log-probability. -/
def lossR (x : (⟨3, ![16, 512, 10000]⟩ : Shape).Idx → EReal) (tg : (⟨2, ![16, 512]⟩ : Shape).Idx → BitVec 32) : EReal :=
  Ideal.div
    (Ideal.ofBits .f32 0x00000000#32 + ∑ j : (⟨2, ![16, 512]⟩ : Shape).Idx, perTokR (fun k => x (tokIdx j k)) (tg j))
    (Ideal.ofBits .f32 0x00000000#32 + ∑ j : (⟨2, ![16, 512]⟩ : Shape).Idx, maskR (tg j))

/-- On finite scores the two are equal: token by token the losses agree, and so do the masks. -/
theorem loss_eq (x : (⟨3, ![16, 512, 10000]⟩ : Shape).Idx → EReal) (tg : (⟨2, ![16, 512]⟩ : Shape).Idx → BitVec 32)
    (hx : ∀ i, ∃ y : ℝ, x i = (y : EReal)) : lossR x tg = lossK x tg := by
  unfold lossR lossK
  rw [Finset.sum_congr rfl fun j _ => perTok_eq (fun k => x (tokIdx j k)) (fun k => hx (tokIdx j k)) (tg j),
    Finset.sum_congr rfl fun j _ => mask_eq (tg j)]

end Cert.CE

end
-- ==== Proof.Reshape.lean ====
/-
  Two row-major casts read at a token. The scores [16, 512, 10000] cast to [8192, 10000] and the labels [16, 512]
  cast to [8192, 1] keep every entry's row-major position; at the flat row 512 · b + s of token (b, s) the cast
  scores are the token's row of class scores and the cast labels' one column is the token's label.
-/
import proofs.«113265_j39968965656966_2_alg».proof.Proof.Loss
import Idealize.ShloMosaic.Lib.Pipeline.Value
import Idealize.ShloMosaic.Lib.ValueIdx

noncomputable section

namespace Cert.CE

open Idealize.ShloMosaic Idealize.ShloMosaic.ValueIdx

/-- The scores cast to [8192, 10000], read at token j's flat row and class k, are the score of class k of token j:
    both positions are ((b · 512 + s) · 10000 + k). -/
theorem cast_scores_apply (X : (⟨3, ![16, 512, 10000]⟩ : Shape).Idx → EReal) (h : (⟨3, ![16, 512, 10000]⟩ : Shape).ShapeCasts ⟨2, ![8192, 10000]⟩)
    (j : (⟨2, ![16, 512]⟩ : Shape).Idx) (k : Fin 10000) :
    shapeCast (⟨2, ![8192, 10000]⟩ : Shape) X h (ix2 (rowOf j) k) = X (tokIdx j k) :=
  shapeCast_apply X h _ _ (by
    rw [Shape.rowMajor_val_three, Shape.rowMajor_val_two]
    show ((j 0).val * 512 + (j 1).val) * 10000 + k.val = ((j 0).val * 512 + (j 1).val) * 10000 + k.val
    rfl)

/-- The labels cast to the column [8192, 1], read at token j's flat row, are the label of token j:
    both positions are b · 512 + s. -/
theorem cast_labels_apply (T : (⟨2, ![16, 512]⟩ : Shape).Idx → BitVec 32) (h : (⟨2, ![16, 512]⟩ : Shape).ShapeCasts ⟨2, ![8192, 1]⟩)
    (j : (⟨2, ![16, 512]⟩ : Shape).Idx) (u : Fin 1) :
    shapeCast (⟨2, ![8192, 1]⟩ : Shape) T h (ix2 (rowOf j) u) = T j :=
  shapeCast_apply T h _ _ (by
    have hu : u.val = 0 := by omega
    rw [Shape.rowMajor_val_two, Shape.rowMajor_val_two]
    show (j 0).val * 512 + (j 1).val = ((j 0).val * 512 + (j 1).val) * 1 + u.val
    rw [hu, Nat.mul_one, Nat.add_zero])

end Cert.CE

end
-- ==== Proof.KernelValue.lean ====
/-
  What the two output arrays of the kernel's one region hold after the run, and the scalar the host lines after the
  region compute from them. Grid point `t` writes back rows 128 t … 128 t + 127 of two one-column arrays [8192, 1]:
  the masked token losses and the masks of those rows, each a function of the row of scores and the row's label in
  the region's input arrays (the reshaped arguments). The 64 blocks tile the 8192 rows, so each array is that
  function of the row at every index; the host then sums each column and divides.
-/
import proofs.«113265_j39968965656966_2_alg».proof.Proof.Gen.KernelIdeal.Frame
import proofs.«113265_j39968965656966_2_alg».proof.Proof.KernelPay
import proofs.«113265_j39968965656966_2_alg».proof.Proof.Loss
import proofs.«113265_j39968965656966_2_alg».proof.Proof.Reshape
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The row number of an index of a one-column array. -/
def rowN (i : S8192x1.Idx) : Fin 8192 := ⟨(i 0).val, idx2_lt0 i⟩

/-- The masked token losses as one function of the region's two input arrays. -/
def lossCol (A0 : S8192x10000.Idx → EReal) (A1 : S8192x1.Idx → BitVec 32) : S8192x1.Idx → EReal :=
  fun i => Cert.CE.perTokK (fun k => A0 (ix2 (rowN i) k)) (A1 (ix2 (rowN i) (0 : Fin 1)))

/-- The masks as one function of the label array. -/
def maskCol (A1 : S8192x1.Idx → BitVec 32) : S8192x1.Idx → EReal :=
  fun i => Cert.CE.maskK (A1 (ix2 (rowN i) (0 : Fin 1)))

/-- The printed index maps over the 64 grid points: every window's block at point `t` is block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p`, class `k` of the score block at point `t` is row 128 t + p of the region's score array. -/
theorem iblk0_apply (c : Dev nD) (t : Fin cfg0.N) (p : Fin 128) (k : Fin 10000) (n : Fin 8192) (hn : n.val = t.val * 128 + p.val) :
    (iblk m c 0 t : Vec Ideal S128x10000 .f32) (ix2 p k) = (V m c main_v0 : S8192x10000.Idx → EReal) (ix2 n k) := by
  obtain ⟨e0, e1, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 2) * 128 + 1 * p.val = n.val; rw [e0, hn]; omega
  | ⟨1, _⟩ => show win0_0.index t (1 : Fin 2) * 10000 + 1 * k.val = k.val; rw [e1]; omega

/-- Row `p` of the label block at point `t` is row 128 t + p of the region's label array. -/
theorem iblk1_apply (c : Dev nD) (t : Fin cfg0.N) (p : Fin 128) (u : Fin 1) (n : Fin 8192) (hn : n.val = t.val * 128 + p.val) :
    (iblk m c 1 t : Vec Ideal S128x1 .i32) (ix2 p u) = (V m c main_v1 : S8192x1.Idx → BitVec 32) (ix2 n (0 : Fin 1)) := by
  obtain ⟨-, -, e0, e1, -⟩ := idx_facts t
  unfold iblk
  rw [View.read_apply]
  show V m c main_v1 _ = V m c main_v1 _
  refine congrArg (V m c main_v1) ?_
  funext a
  apply Fin.ext
  match a with
  | ⟨0, _⟩ => show win0_1.index t (0 : Fin 2) * 128 + 1 * p.val = n.val; rw [e0, hn]; omega
  | ⟨1, _⟩ => show win0_1.index t (1 : Fin 2) * 1 + 1 * u.val = 0; rw [e1]; omega

/-- WHAT POINT `t` WRITES BACK to the loss array is block `t` of `lossCol` of the region's input arrays. -/
theorem flushed2_eq (c : Dev nD) (t : Fin cfg0.N) :
    (dats m 0 c).flushed 2 t = ((cfg0.win 2).blk t).view.read (Elt Ideal) (lossCol (V m c main_v0) (V m c main_v1)) := by
  show (cfg0.win 2).cut (grid0.coords t) ((dats m 0 c).after 2 t) = _
  rw [after0_2]
  unfold out0_2
  rw [View.canon_unit_zero hz]
  simp only [View.ld_unit_zero (S := S128x10000) hz, View.ld_unit_zero (S := S128x1) hz]
  obtain ⟨-, -, -, -, e0, e1, -⟩ := idx_facts t
  funext j
  obtain ⟨p, u, rfl⟩ : ∃ (p : Fin 128) (u : Fin 1), j = ix2 p u := ⟨j 0, j 1, eq_ix2 j⟩
  have hlt : t.val * 128 + p.val < 8192 := by
    have := t.isLt; have hN : cfg0.N = 64 := N_0; have := p.isLt; omega
  have hrow : rowN (((cfg0.win 2).blk t).view.emb (ix2 p u)) = ⟨t.val * 128 + p.val, hlt⟩ := by
    apply Fin.ext
    show win0_2.index t (0 : Fin 2) * 128 + 1 * p.val = t.val * 128 + p.val
    rw [e0]; omega
  show k0_pay4 (F := Ideal) (iblk m c 0 t) (iblk m c 1 t) (ix2 p u)
      = lossCol (V m c main_v0) (V m c main_v1) (((cfg0.win 2).blk t).view.emb (ix2 p u))
  refine (Cert.KernelIdeal.Body.pay4_apply (iblk m c 0 t) (iblk m c 1 t) p u).trans ?_
  unfold lossCol
  rw [hrow]
  refine congrArg₂ Cert.CE.perTokK (funext fun k => ?_) ?_
  · exact iblk0_apply m c t p k _ rfl
  · exact iblk1_apply m c t p 0 _ rfl

/-- WHAT POINT `t` WRITES BACK to the mask array is block `t` of `maskCol` of the region's label array. -/
theorem flushed3_eq (c : Dev nD) (t : Fin cfg0.N) :
    (dats m 0 c).flushed 3 t = ((cfg0.win 3).blk t).view.read (Elt Ideal) (maskCol (V m c main_v1)) := by
  show (cfg0.win 3).cut (grid0.coords t) ((dats m 0 c).after 3 t) = _
  rw [after0_3]
  unfold out0_3
  rw [View.canon_unit_zero hz]
  simp only [View.ld_unit_zero (S := S128x1) hz]
  obtain ⟨-, -, -, -, -, -, e0, e1⟩ := idx_facts t
  funext j
  obtain ⟨p, u, rfl⟩ : ∃ (p : Fin 128) (u : Fin 1), j = ix2 p u := ⟨j 0, j 1, eq_ix2 j⟩
  have hlt : t.val * 128 + p.val < 8192 := by
    have := t.isLt; have hN : cfg0.N = 64 := N_0; have := p.isLt; omega
  have hrow : rowN (((cfg0.win 3).blk t).view.emb (ix2 p u)) = ⟨t.val * 128 + p.val, hlt⟩ := by
    apply Fin.ext
    show win0_3.index t (0 : Fin 2) * 128 + 1 * p.val = t.val * 128 + p.val
    rw [e0]; omega
  show k0_pay3 (F := Ideal) (iblk m c 1 t) (ix2 p u)
      = maskCol (V m c main_v1) (((cfg0.win 3).blk t).view.emb (ix2 p u))
  refine (Cert.KernelIdeal.Body.pay3_apply (iblk m c 1 t) p u).trans ?_
  unfold maskCol
  rw [hrow]
  exact congrArg Cert.CE.maskK (iblk1_apply m c t p 0 _ rfl)

/-- An index of the loss array is in point `t`'s block iff each coordinate is in the block's range on its axis. -/
theorem mem_blk2 (t : Fin cfg0.N) (i : S8192x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v2_0).slice (win0_2.rect t)).set ↔ _
  rw [View.set_slice_whole, Rect.mem_set_unit]
  exact Iff.rfl

theorem mem_blk3 (t : Fin cfg0.N) (i : S8192x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v2_1).slice (win0_3.rect t)).set ↔ _
  rw [View.set_slice_whole, Rect.mem_set_unit]
  exact Iff.rfl

/-- Row `r` lies in the block of point `r / 128`. -/
theorem cover2 (i : S8192x1.Idx) : ∃ t : Fin cfg0.N, (cfg0.win 2).flush t = true ∧ i ∈ ((cfg0.win 2).blk t).view.set := by
  have h0 : (i 0).val < 8192 := idx2_lt0 i
  have h1 : (i 1).val < 1 := idx2_lt1 i
  have hN : cfg0.N = 64 := N_0
  let t : Fin cfg0.N := ⟨(i 0).val / 128, by rw [hN]; omega⟩
  obtain ⟨-, -, -, -, e0, e1, -⟩ := idx_facts t
  have ht : t.val = (i 0).val / 128 := rfl
  refine ⟨t, flush0_2 t, ?_⟩
  rw [mem_blk2]
  intro a
  match a with
  | ⟨0, _⟩ => show win0_2.index t (0 : Fin 2) * 128 ≤ (i 0).val ∧ (i 0).val < win0_2.index t (0 : Fin 2) * 128 + 128; rw [e0, ht]; omega
  | ⟨1, _⟩ => show win0_2.index t (1 : Fin 2) * 1 ≤ (i 1).val ∧ (i 1).val < win0_2.index t (1 : Fin 2) * 1 + 1; rw [e1]; omega

theorem cover3 (i : S8192x1.Idx) : ∃ t : Fin cfg0.N, (cfg0.win 3).flush t = true ∧ i ∈ ((cfg0.win 3).blk t).view.set := by
  have h0 : (i 0).val < 8192 := idx2_lt0 i
  have h1 : (i 1).val < 1 := idx2_lt1 i
  have hN : cfg0.N = 64 := N_0
  let t : Fin cfg0.N := ⟨(i 0).val / 128, by rw [hN]; omega⟩
  obtain ⟨-, -, -, -, -, -, e0, e1⟩ := idx_facts t
  have ht : t.val = (i 0).val / 128 := rfl
  refine ⟨t, flush0_3 t, ?_⟩
  rw [mem_blk3]
  intro a
  match a with
  | ⟨0, _⟩ => show win0_3.index t (0 : Fin 2) * 128 ≤ (i 0).val ∧ (i 0).val < win0_3.index t (0 : Fin 2) * 128 + 128; rw [e0, ht]; omega
  | ⟨1, _⟩ => show win0_3.index t (1 : Fin 2) * 1 ≤ (i 1).val ∧ (i 1).val < win0_3.index t (1 : Fin 2) * 1 + 1; rw [e1]; omega

/-- THE LOSS ARRAY after the run. -/
theorem final2 (c : Dev nD) : (dats m 0 c).arrAt 2 cfg0.N = lossCol (V m c main_v0) (V m c main_v1) :=
  (dats m 0 c).arrAt_eq_of_cover 2 (lossCol (V m c main_v0) (V m c main_v1)) (fun t _ => flushed2_eq m c t) cover2

/-- THE MASK ARRAY after the run. -/
theorem final3 (c : Dev nD) : (dats m 0 c).arrAt 3 cfg0.N = maskCol (V m c main_v1) :=
  (dats m 0 c).arrAt_eq_of_cover 3 (maskCol (V m c main_v1)) (fun t _ => flushed3_eq m c t) cover3

/-! ## The region's input arrays are the arguments reshaped -/

/-- The region's score array is the score argument cast to [8192, 10000]. -/
theorem V_main_v0 (c : Dev nD) : (V m c main_v0 : S8192x10000.Idx → EReal)
    = shapeCast S8192x10000 (m ((c : Thread nD τ).loc main_arg0) : S16x512x10000.Idx → EReal) Gen.shapeCasts_S16x512x10000_S8192x10000 := by
  show StableHlo.after hostOps0 (fun b => m (c, b)) (Proc.devRef .tc main_v0) = _
  after_results
  rfl

/-- The region's label array is the label argument cast to [8192, 1]. -/
theorem V_main_v1 (c : Dev nD) : (V m c main_v1 : S8192x1.Idx → BitVec 32)
    = shapeCast S8192x1 (m ((c : Thread nD τ).loc main_arg1) : S16x512.Idx → BitVec 32) Gen.shapeCasts_S16x512_S8192x1 := by
  show StableHlo.after hostOps0 (fun b => m (c, b)) (Proc.devRef .tc main_v1) = _
  after_results
  rfl

/-! ## The host lines after the region -/

/-- A host sum of a one-column array into a scalar: the word of zero plus the sum of all its entries. -/
theorem colSum_apply (y : S8192x1.Idx → EReal) (i : S_.Idx) :
    Host.reduceAdd (F := Ideal) (φ := .f32) y (constant S_ .f32 0x00000000#32) Gen.reducesTo_S8192x1_S_d0_1 Gen.h_S_ i
      = Ideal.ofBits .f32 0x00000000#32 + ∑ j : S8192x1.Idx, y j := by
  simp only [Host.reduceAdd, Ideal.hostReduceAdd_def]
  exact Ideal.hostReduceAdd_total Gen.reducesTo_S8192x1_S_d0_1 (fun b => b.elim0) y _ i

/-- The host lines after the region on any two columns: each summed over its 8192 rows — the same as over the 16 × 512
    tokens, row 512 b + s — and the first sum divided by the second. -/
theorem tail_scalar (L Mk : S8192x1.Idx → EReal) (i : S_.Idx) :
    Host.divf (F := Ideal) (φ := .f32)
        (Host.reduceAdd (F := Ideal) (φ := .f32) L (constant S_ .f32 0x00000000#32) Gen.reducesTo_S8192x1_S_d0_1 Gen.h_S_)
        (Host.reduceAdd (F := Ideal) (φ := .f32) Mk (constant S_ .f32 0x00000000#32) Gen.reducesTo_S8192x1_S_d0_1 Gen.h_S_) i
      = Ideal.div (Ideal.ofBits .f32 0x00000000#32 + ∑ j : S16x512.Idx, L (ix2 (Cert.CE.rowOf j) (0 : Fin 1)))
          (Ideal.ofBits .f32 0x00000000#32 + ∑ j : S16x512.Idx, Mk (ix2 (Cert.CE.rowOf j) (0 : Fin 1))) := by
  show Ideal.div (Host.reduceAdd (F := Ideal) (φ := .f32) L (constant S_ .f32 0x00000000#32) Gen.reducesTo_S8192x1_S_d0_1 Gen.h_S_ i)
      (Host.reduceAdd (F := Ideal) (φ := .f32) Mk (constant S_ .f32 0x00000000#32) Gen.reducesTo_S8192x1_S_d0_1 Gen.h_S_ i) = _
  rw [colSum_apply, colSum_apply, Cert.CE.sum_rows, Cert.CE.sum_rows]

/-- Token `j`'s entry of the loss column is its masked loss on its own scores and label. -/
theorem lossCol_tok (c : Dev nD) (j : S16x512.Idx) :
    lossCol (V m c main_v0) (V m c main_v1) (ix2 (Cert.CE.rowOf j) (0 : Fin 1))
      = Cert.CE.perTokK (fun k => (m ((c : Thread nD τ).loc main_arg0) : S16x512x10000.Idx → EReal) (Cert.CE.tokIdx j k))
          ((m ((c : Thread nD τ).loc main_arg1) : S16x512.Idx → BitVec 32) j) := by
  show Cert.CE.perTokK (fun k => V m c main_v0 (ix2 (Cert.CE.rowOf j) k)) (V m c main_v1 (ix2 (Cert.CE.rowOf j) (0 : Fin 1))) = _
  refine congrArg₂ Cert.CE.perTokK (funext fun k => ?_) ?_
  · exact (congrFun (V_main_v0 m c) (ix2 (Cert.CE.rowOf j) k)).trans (Cert.CE.cast_scores_apply _ _ j k)
  · exact (congrFun (V_main_v1 m c) (ix2 (Cert.CE.rowOf j) (0 : Fin 1))).trans (Cert.CE.cast_labels_apply _ _ j 0)

/-- Token `j`'s entry of the mask column is its mask. -/
theorem maskCol_tok (c : Dev nD) (j : S16x512.Idx) :
    maskCol (V m c main_v1) (ix2 (Cert.CE.rowOf j) (0 : Fin 1))
      = Cert.CE.maskK ((m ((c : Thread nD τ).loc main_arg1) : S16x512.Idx → BitVec 32) j) := by
  show Cert.CE.maskK (V m c main_v1 (ix2 (Cert.CE.rowOf j) (0 : Fin 1))) = _
  exact congrArg Cert.CE.maskK ((congrFun (V_main_v1 m c) (ix2 (Cert.CE.rowOf j) (0 : Fin 1))).trans (Cert.CE.cast_labels_apply _ _ j 0))

/-- THE SCALAR the host lines after the region leave: the two columns summed and divided, which is the mean masked
    loss of the arguments. -/
theorem tail_eq (c : Dev nD) :
    Pipeline.afterTail₀ cfgs (dats m) 0 (V0 m) [hostOps1] c main_v5
      = ((fun _ => Cert.CE.lossK (m ((c : Thread nD τ).loc main_arg0)) (m ((c : Thread nD τ).loc main_arg1))) : S_.Idx → EReal) := by
  unfold Pipeline.afterTail₀
  simp only [List.flatten_cons, List.flatten_nil, List.append_nil]
  after_results
  have e2 : Pipeline.withArrays (cfgs 0).spec c (V0 m c) (fun w => (dats m 0 c).arrAt w (cfgs 0).N) (Proc.devRef .tc main_v2_0)
      = lossCol (V m c main_v0) (V m c main_v1) :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v2_1)
      = maskCol (V m c main_v1) :=
    (Pipeline.withArrays_arr spec0 launch0.win.arr_inj c _ _ 3).trans (final3 m c)
  rw [e2, e3]
  funext i
  refine (tail_scalar _ _ i).trans ?_
  unfold Cert.CE.lossK
  refine congrArg₂ Ideal.div (congrArg (Ideal.ofBits .f32 0x00000000#32 + ·) (Finset.sum_congr rfl fun j _ => ?_))
    (congrArg (Ideal.ofBits .f32 0x00000000#32 + ·) (Finset.sum_congr rfl fun j _ => ?_))
  · exact lossCol_tok m c j
  · exact maskCol_tok m c j

/-! ## The run, read -/

/-- Every weakly fair execution of the kernel's program ends with its result at the mean masked loss of the
    arguments, and the arguments unchanged. -/
theorem run : θ_run defs (onTc (τ := τ) (main (F := Ideal))) ⟨m, fun _ => 0, ρ⟩ fun r => ∀ c : Dev nD,
      r.2.mem ((c.tc : Thread nD τ).loc main_v5)
        = ((fun _ => Cert.CE.lossK (m ((c.tc : Thread nD τ).loc main_arg0)) (m ((c.tc : Thread nD τ).loc main_arg1))) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v5 (Pipeline.mem_restRefs_of main_v5 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KValue

end
-- ==== Proof.RefRun.lean ====
/-
  The run of the reference program. Its 53 operations as one list over the literal buffers; the program is the line
  of that list; and from any memory with zero counters every weakly fair execution terminates with the result buffer
  at the composed value of the two arguments, the arguments unchanged. The operations of the three called functions
  are stated over typed references, whose transports are along reflexivity at literal buffers: each such operation is
  proved equal to its plain form on its own, so that the composed value carries no transport.
-/
import proofs.«113265_j39968965656966_2_alg».proof.Proof.RefRead
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 53 operations of the program in order, each over the literal buffers it reads and writes; the operations of
    the three called functions stand where the calls are. -/
abbrev ops : List (HloOp τ sig (Elt F)) :=
  [ nullary main_c (constantI S_ 32 4294967295#32),
    unary main_c main_v0 (broadcastInDim S16x512 ![] bcast_S_S16x512 : (⟨S_, .i32⟩ : BufTy).Contents (Elt F) → (⟨S16x512, .i32⟩ : BufTy).Contents (Elt F)),
    binary main_arg1 main_v0 main_v1 (cmpi .ne : (⟨S16x512, .i32⟩ : BufTy).Contents (Elt F) → (⟨S16x512, .i32⟩ : BufTy).Contents (Elt F) → (⟨S16x512, .i1⟩ : BufTy).Contents (Elt F)),
    nullary main_c_0 (constantI S_ 32 0#32),
    unary main_c_0 main_call0_v0 (id : (⟨S_, .i32⟩ : BufTy).Contents (Elt F) → (⟨S_, .i32⟩ : BufTy).Contents (Elt F)),
    unary main_call0_v0 main_call0_v1 ((broadcastInDim S16x512 ![] bcast_S_S16x512) : (⟨S_, .i32⟩ : BufTy).Contents (Elt F) → (⟨S16x512, .i32⟩ : BufTy).Contents (Elt F)),
    ternary main_v1 main_arg1 main_call0_v1 main_v2 (select : (⟨S16x512, .i1⟩ : BufTy).Contents (Elt F) → (⟨S16x512, .i32⟩ : BufTy).Contents (Elt F) → (⟨S16x512, .i32⟩ : BufTy).Contents (Elt F) → (⟨S16x512, .i32⟩ : BufTy).Contents (Elt F)),
    unary main_v2 main_call1_v0 ((broadcastInDim S16x512x1 ![0, 1] bcast_S16x512_S16x512x1_0_1) : (⟨S16x512, .i32⟩ : BufTy).Contents (Elt F) → (⟨S16x512x1, .i32⟩ : BufTy).Contents (Elt F)),
    nullary main_call1_v1 ((iotaInDim S1x1x10000 32 2) : (⟨S1x1x10000, .i32⟩ : BufTy).Contents (Elt F)),
    unary main_call1_v0 main_call1_v2 ((broadcastInDim S16x512x10000 ![0, 1, 2] bcast_S16x512x1_S16x512x10000_0_1_2) : (⟨S16x512x1, .i32⟩ : BufTy).Contents (Elt F) → (⟨S16x512x10000, .i32⟩ : BufTy).Contents (Elt F)),
    unary main_call1_v1 main_call1_v3 ((broadcastInDim S16x512x10000 ![0, 1, 2] bcast_S1x1x10000_S16x512x10000_0_1_2) : (⟨S1x1x10000, .i32⟩ : BufTy).Contents (Elt F) → (⟨S16x512x10000, .i32⟩ : BufTy).Contents (Elt F)),
    binary main_call1_v2 main_call1_v3 main_call1_v4 ((cmpi .eq) : (⟨S16x512x10000, .i32⟩ : BufTy).Contents (Elt F) → (⟨S16x512x10000, .i32⟩ : BufTy).Contents (Elt F) → (⟨S16x512x10000, .i1⟩ : BufTy).Contents (Elt F)),
    unary main_call1_v4 main_v3 ((uitofp .f32) : (⟨S16x512x10000, .i1⟩ : BufTy).Contents (Elt F) → (⟨S16x512x10000, .f32⟩ : BufTy).Contents (Elt F)),
    nullary main_cst (constant S_ .f32 0x3F666666#32),
    unary main_cst main_v4 (broadcastInDim S16x512x10000 ![] bcast_S_S16x512x10000 : (⟨S_, .f32⟩ : BufTy).Contents (Elt F) → (⟨S16x512x10000, .f32⟩ : BufTy).Contents (Elt F)),
    binary main_v3 main_v4 main_v5 (mulf : (⟨S16x512x10000, .f32⟩ : BufTy).Contents (Elt F) → (⟨S16x512x10000, .f32⟩ : BufTy).Contents (Elt F) → (⟨S16x512x10000, .f32⟩ : BufTy).Contents (Elt F)),
    nullary main_cst_1 (constant S_ .f32 0x3727C5AC#32),
    unary main_cst_1 main_v6 (broadcastInDim S16x512x10000 ![] bcast_S_S16x512x10000 : (⟨S_, .f32⟩ : BufTy).Contents (Elt F) → (⟨S16x512x10000, .f32⟩ : BufTy).Contents (Elt F)),
    binary main_v5 main_v6 main_v7 (addf : (⟨S16x512x10000, .f32⟩ : BufTy).Contents (Elt F) → (⟨S16x512x10000, .f32⟩ : BufTy).Contents (Elt F) → (⟨S16x512x10000, .f32⟩ : BufTy).Contents (Elt F)),
    nullary main_call2_cst ((constant S_ .f32 0xFF800000#32) : (⟨S_, .f32⟩ : BufTy).Contents (Elt F)),
    binary main_arg0 main_call2_cst main_call2_v0 ((fun x v => Host.reduce FloatOps.maximumf x v reducesTo_S16x512x10000_S16x512_d2 h_S_) : (⟨S16x512x10000, .f32⟩ : BufTy).Contents (Elt F) → (⟨S_, .f32⟩ : BufTy).Contents (Elt F) → (⟨S16x512, .f32⟩ : BufTy).Contents (Elt F)),
    nullary main_call2_cst_0 ((constant S_ .f32 0xFF800000#32) : (⟨S_, .f32⟩ : BufTy).Contents (Elt F)),
    unary main_call2_cst_0 main_call2_v1 ((broadcastInDim S16x512 ![] bcast_S_S16x512) : (⟨S_, .f32⟩ : BufTy).Contents (Elt F) → (⟨S16x512, .f32⟩ : BufTy).Contents (Elt F)),
    binary main_call2_v1 main_call2_v0 main_call2_v2 (maximumf : (⟨S16x512, .f32⟩ : BufTy).Contents (Elt F) → (⟨S16x512, .f32⟩ : BufTy).Contents (Elt F) → (⟨S16x512, .f32⟩ : BufTy).Contents (Elt F)),
    unary main_call2_v2 main_call2_v3 ((broadcastInDim S16x512x1 ![0, 1] bcast_S16x512_S16x512x1_0_1) : (⟨S16x512, .f32⟩ : BufTy).Contents (Elt F) → (⟨S16x512x1, .f32⟩ : BufTy).Contents (Elt F)),
    unary main_call2_v3 main_call2_v4 ((broadcastInDim S16x512x10000 ![0, 1, 2] bcast_S16x512x1_S16x512x10000_0_1_2) : (⟨S16x512x1, .f32⟩ : BufTy).Contents (Elt F) → (⟨S16x512x10000, .f32⟩ : BufTy).Contents (Elt F)),
    binary main_arg0 main_call2_v4 main_call2_v5 (subf : (⟨S16x512x10000, .f32⟩ : BufTy).Contents (Elt F) → (⟨S16x512x10000, .f32⟩ : BufTy).Contents (Elt F) → (⟨S16x512x10000, .f32⟩ : BufTy).Contents (Elt F)),
    unary main_call2_v5 main_call2_v6 (Host.exp : (⟨S16x512x10000, .f32⟩ : BufTy).Contents (Elt F) → (⟨S16x512x10000, .f32⟩ : BufTy).Contents (Elt F)),
    nullary main_call2_cst_1 ((constant S_ .f32 0x00000000#32) : (⟨S_, .f32⟩ : BufTy).Contents (Elt F)),
    binary main_call2_v6 main_call2_cst_1 main_call2_v7 ((fun x v => Host.reduceAdd x v reducesTo_S16x512x10000_S16x512_d2 h_S_) : (⟨S16x512x10000, .f32⟩ : BufTy).Contents (Elt F) → (⟨S_, .f32⟩ : BufTy).Contents (Elt F) → (⟨S16x512, .f32⟩ : BufTy).Contents (Elt F)),
    unary main_call2_v7 main_call2_v8 ((broadcastInDim S16x512x1 ![0, 1] bcast_S16x512_S16x512x1_0_1) : (⟨S16x512, .f32⟩ : BufTy).Contents (Elt F) → (⟨S16x512x1, .f32⟩ : BufTy).Contents (Elt F)),
    unary main_call2_v8 main_call2_v9 (Host.log : (⟨S16x512x1, .f32⟩ : BufTy).Contents (Elt F) → (⟨S16x512x1, .f32⟩ : BufTy).Contents (Elt F)),
    unary main_call2_v9 main_call2_v10 ((broadcastInDim S16x512x10000 ![0, 1, 2] bcast_S16x512x1_S16x512x10000_0_1_2) : (⟨S16x512x1, .f32⟩ : BufTy).Contents (Elt F) → (⟨S16x512x10000, .f32⟩ : BufTy).Contents (Elt F)),
    binary main_call2_v5 main_call2_v10 main_v8 (subf : (⟨S16x512x10000, .f32⟩ : BufTy).Contents (Elt F) → (⟨S16x512x10000, .f32⟩ : BufTy).Contents (Elt F) → (⟨S16x512x10000, .f32⟩ : BufTy).Contents (Elt F)),
    unary main_v8 main_v9 (Host.exp : (⟨S16x512x10000, .f32⟩ : BufTy).Contents (Elt F) → (⟨S16x512x10000, .f32⟩ : BufTy).Contents (Elt F)),
    nullary main_cst_2 (constant S_ .f32 0x3F800000#32),
    unary main_cst_2 main_v10 (broadcastInDim S16x512x10000 ![] bcast_S_S16x512x10000 : (⟨S_, .f32⟩ : BufTy).Contents (Elt F) → (⟨S16x512x10000, .f32⟩ : BufTy).Contents (Elt F)),
    binary main_v10 main_v9 main_v11 (subf : (⟨S16x512x10000, .f32⟩ : BufTy).Contents (Elt F) → (⟨S16x512x10000, .f32⟩ : BufTy).Contents (Elt F) → (⟨S16x512x10000, .f32⟩ : BufTy).Contents (Elt F)),
    nullary main_cst_3 (constant S_ .f32 0x40400000#32),
    unary main_cst_3 main_v12 (broadcastInDim S16x512x10000 ![] bcast_S_S16x512x10000 : (⟨S_, .f32⟩ : BufTy).Contents (Elt F) → (⟨S16x512x10000, .f32⟩ : BufTy).Contents (Elt F)),
    binary main_v11 main_v12 main_v13 (Host.powf : (⟨S16x512x10000, .f32⟩ : BufTy).Contents (Elt F) → (⟨S16x512x10000, .f32⟩ : BufTy).Contents (Elt F) → (⟨S16x512x10000, .f32⟩ : BufTy).Contents (Elt F)),
    binary main_v13 main_v8 main_v14 (mulf : (⟨S16x512x10000, .f32⟩ : BufTy).Contents (Elt F) → (⟨S16x512x10000, .f32⟩ : BufTy).Contents (Elt F) → (⟨S16x512x10000, .f32⟩ : BufTy).Contents (Elt F)),
    binary main_v14 main_v7 main_v15 (mulf : (⟨S16x512x10000, .f32⟩ : BufTy).Contents (Elt F) → (⟨S16x512x10000, .f32⟩ : BufTy).Contents (Elt F) → (⟨S16x512x10000, .f32⟩ : BufTy).Contents (Elt F)),
    nullary main_cst_4 (constant S_ .f32 0x00000000#32),
    binary main_v15 main_cst_4 main_v16 ((fun x v => Host.reduceAdd x v reducesTo_S16x512x10000_S16x512_d2 h_S_) : (⟨S16x512x10000, .f32⟩ : BufTy).Contents (Elt F) → (⟨S_, .f32⟩ : BufTy).Contents (Elt F) → (⟨S16x512, .f32⟩ : BufTy).Contents (Elt F)),
    unary main_v16 main_v17 (Host.negf : (⟨S16x512, .f32⟩ : BufTy).Contents (Elt F) → (⟨S16x512, .f32⟩ : BufTy).Contents (Elt F)),
    unary main_v1 main_v18 (uitofp .f32 : (⟨S16x512, .i1⟩ : BufTy).Contents (Elt F) → (⟨S16x512, .f32⟩ : BufTy).Contents (Elt F)),
    binary main_v17 main_v18 main_v19 (mulf : (⟨S16x512, .f32⟩ : BufTy).Contents (Elt F) → (⟨S16x512, .f32⟩ : BufTy).Contents (Elt F) → (⟨S16x512, .f32⟩ : BufTy).Contents (Elt F)),
    nullary main_cst_5 (constant S_ .f32 0x00000000#32),
    binary main_v19 main_cst_5 main_v20 ((fun x v => Host.reduceAdd x v reducesTo_S16x512_S_d0_1 h_S_) : (⟨S16x512, .f32⟩ : BufTy).Contents (Elt F) → (⟨S_, .f32⟩ : BufTy).Contents (Elt F) → (⟨S_, .f32⟩ : BufTy).Contents (Elt F)),
    nullary main_cst_6 (constant S_ .f32 0x00000000#32),
    binary main_v18 main_cst_6 main_v21 ((fun x v => Host.reduceAdd x v reducesTo_S16x512_S_d0_1 h_S_) : (⟨S16x512, .f32⟩ : BufTy).Contents (Elt F) → (⟨S_, .f32⟩ : BufTy).Contents (Elt F) → (⟨S_, .f32⟩ : BufTy).Contents (Elt F)),
    binary main_v20 main_v21 main_v22 (Host.divf : (⟨S_, .f32⟩ : BufTy).Contents (Elt F) → (⟨S_, .f32⟩ : BufTy).Contents (Elt F) → (⟨S_, .f32⟩ : BufTy).Contents (Elt F)) ]

/-- The same 53 operations with those of the called functions spelt over typed references, as the calls unfold. -/
abbrev opsT : List (HloOp τ sig (Elt F)) :=
  [ nullary main_c (constantI S_ 32 4294967295#32),
    unary main_c main_v0 (broadcastInDim S16x512 ![] bcast_S_S16x512 : (⟨S_, .i32⟩ : BufTy).Contents (Elt F) → (⟨S16x512, .i32⟩ : BufTy).Contents (Elt F)),
    binary main_arg1 main_v0 main_v1 (cmpi .ne : (⟨S16x512, .i32⟩ : BufTy).Contents (Elt F) → (⟨S16x512, .i32⟩ : BufTy).Contents (Elt F) → (⟨S16x512, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S16x512, .i32⟩) main_call0_v1) (broadcastInDim S16x512 ![] bcast_S_S16x512),
    TRef.ternary (TRef.of (T := ⟨S16x512, .i1⟩) main_v1) (TRef.of (T := ⟨S16x512, .i32⟩) main_arg1) (TRef.of (T := ⟨S16x512, .i32⟩) main_call0_v1) (TRef.of (T := ⟨S16x512, .i32⟩) main_v2) select,
    TRef.unary (TRef.of (T := ⟨S16x512, .i32⟩) main_v2) (TRef.of (T := ⟨S16x512x1, .i32⟩) main_call1_v0) (broadcastInDim S16x512x1 ![0, 1] bcast_S16x512_S16x512x1_0_1),
    TRef.nullary (TRef.of (T := ⟨S1x1x10000, .i32⟩) main_call1_v1) (iotaInDim S1x1x10000 32 2),
    TRef.unary (TRef.of (T := ⟨S16x512x1, .i32⟩) main_call1_v0) (TRef.of (T := ⟨S16x512x10000, .i32⟩) main_call1_v2) (broadcastInDim S16x512x10000 ![0, 1, 2] bcast_S16x512x1_S16x512x10000_0_1_2),
    TRef.unary (TRef.of (T := ⟨S1x1x10000, .i32⟩) main_call1_v1) (TRef.of (T := ⟨S16x512x10000, .i32⟩) main_call1_v3) (broadcastInDim S16x512x10000 ![0, 1, 2] bcast_S1x1x10000_S16x512x10000_0_1_2),
    TRef.binary (TRef.of (T := ⟨S16x512x10000, .i32⟩) main_call1_v2) (TRef.of (T := ⟨S16x512x10000, .i32⟩) main_call1_v3) (TRef.of (T := ⟨S16x512x10000, .i1⟩) main_call1_v4) (cmpi .eq),
    TRef.unary (TRef.of (T := ⟨S16x512x10000, .i1⟩) main_call1_v4) (TRef.of (T := ⟨S16x512x10000, .f32⟩) main_v3) (uitofp .f32),
    nullary main_cst (constant S_ .f32 0x3F666666#32),
    unary main_cst main_v4 (broadcastInDim S16x512x10000 ![] bcast_S_S16x512x10000 : (⟨S_, .f32⟩ : BufTy).Contents (Elt F) → (⟨S16x512x10000, .f32⟩ : BufTy).Contents (Elt F)),
    binary main_v3 main_v4 main_v5 (mulf : (⟨S16x512x10000, .f32⟩ : BufTy).Contents (Elt F) → (⟨S16x512x10000, .f32⟩ : BufTy).Contents (Elt F) → (⟨S16x512x10000, .f32⟩ : BufTy).Contents (Elt F)),
    nullary main_cst_1 (constant S_ .f32 0x3727C5AC#32),
    unary main_cst_1 main_v6 (broadcastInDim S16x512x10000 ![] bcast_S_S16x512x10000 : (⟨S_, .f32⟩ : BufTy).Contents (Elt F) → (⟨S16x512x10000, .f32⟩ : BufTy).Contents (Elt F)),
    binary main_v5 main_v6 main_v7 (addf : (⟨S16x512x10000, .f32⟩ : BufTy).Contents (Elt F) → (⟨S16x512x10000, .f32⟩ : BufTy).Contents (Elt F) → (⟨S16x512x10000, .f32⟩ : BufTy).Contents (Elt F)),
    TRef.nullary (TRef.of (T := ⟨S_, .f32⟩) main_call2_cst) (constant S_ .f32 0xFF800000#32),
    TRef.binary (TRef.of (T := ⟨S16x512x10000, .f32⟩) main_arg0) (TRef.of (T := ⟨S_, .f32⟩) main_call2_cst) (TRef.of (T := ⟨S16x512, .f32⟩) main_call2_v0) (fun x v => Host.reduce FloatOps.maximumf x v reducesTo_S16x512x10000_S16x512_d2 h_S_),
    TRef.nullary (TRef.of (T := ⟨S_, .f32⟩) main_call2_cst_0) (constant S_ .f32 0xFF800000#32),
    TRef.unary (TRef.of (T := ⟨S_, .f32⟩) main_call2_cst_0) (TRef.of (T := ⟨S16x512, .f32⟩) main_call2_v1) (broadcastInDim S16x512 ![] bcast_S_S16x512),
    TRef.binary (TRef.of (T := ⟨S16x512, .f32⟩) main_call2_v1) (TRef.of (T := ⟨S16x512, .f32⟩) main_call2_v0) (TRef.of (T := ⟨S16x512, .f32⟩) main_call2_v2) maximumf,
    TRef.unary (TRef.of (T := ⟨S16x512, .f32⟩) main_call2_v2) (TRef.of (T := ⟨S16x512x1, .f32⟩) main_call2_v3) (broadcastInDim S16x512x1 ![0, 1] bcast_S16x512_S16x512x1_0_1),
    TRef.unary (TRef.of (T := ⟨S16x512x1, .f32⟩) main_call2_v3) (TRef.of (T := ⟨S16x512x10000, .f32⟩) main_call2_v4) (broadcastInDim S16x512x10000 ![0, 1, 2] bcast_S16x512x1_S16x512x10000_0_1_2),
    TRef.binary (TRef.of (T := ⟨S16x512x10000, .f32⟩) main_arg0) (TRef.of (T := ⟨S16x512x10000, .f32⟩) main_call2_v4) (TRef.of (T := ⟨S16x512x10000, .f32⟩) main_call2_v5) subf,
    TRef.unary (TRef.of (T := ⟨S16x512x10000, .f32⟩) main_call2_v5) (TRef.of (T := ⟨S16x512x10000, .f32⟩) main_call2_v6) Host.exp,
    TRef.nullary (TRef.of (T := ⟨S_, .f32⟩) main_call2_cst_1) (constant S_ .f32 0x00000000#32),
    TRef.binary (TRef.of (T := ⟨S16x512x10000, .f32⟩) main_call2_v6) (TRef.of (T := ⟨S_, .f32⟩) main_call2_cst_1) (TRef.of (T := ⟨S16x512, .f32⟩) main_call2_v7) (fun x v => Host.reduceAdd x v reducesTo_S16x512x10000_S16x512_d2 h_S_),
    TRef.unary (TRef.of (T := ⟨S16x512, .f32⟩) main_call2_v7) (TRef.of (T := ⟨S16x512x1, .f32⟩) main_call2_v8) (broadcastInDim S16x512x1 ![0, 1] bcast_S16x512_S16x512x1_0_1),
    TRef.unary (TRef.of (T := ⟨S16x512x1, .f32⟩) main_call2_v8) (TRef.of (T := ⟨S16x512x1, .f32⟩) main_call2_v9) Host.log,
    TRef.unary (TRef.of (T := ⟨S16x512x1, .f32⟩) main_call2_v9) (TRef.of (T := ⟨S16x512x10000, .f32⟩) main_call2_v10) (broadcastInDim S16x512x10000 ![0, 1, 2] bcast_S16x512x1_S16x512x10000_0_1_2),
    TRef.binary (TRef.of (T := ⟨S16x512x10000, .f32⟩) main_call2_v5) (TRef.of (T := ⟨S16x512x10000, .f32⟩) main_call2_v10) (TRef.of (T := ⟨S16x512x10000, .f32⟩) main_v8) subf,
    unary main_v8 main_v9 (Host.exp : (⟨S16x512x10000, .f32⟩ : BufTy).Contents (Elt F) → (⟨S16x512x10000, .f32⟩ : BufTy).Contents (Elt F)),
    nullary main_cst_2 (constant S_ .f32 0x3F800000#32),
    unary main_cst_2 main_v10 (broadcastInDim S16x512x10000 ![] bcast_S_S16x512x10000 : (⟨S_, .f32⟩ : BufTy).Contents (Elt F) → (⟨S16x512x10000, .f32⟩ : BufTy).Contents (Elt F)),
    binary main_v10 main_v9 main_v11 (subf : (⟨S16x512x10000, .f32⟩ : BufTy).Contents (Elt F) → (⟨S16x512x10000, .f32⟩ : BufTy).Contents (Elt F) → (⟨S16x512x10000, .f32⟩ : BufTy).Contents (Elt F)),
    nullary main_cst_3 (constant S_ .f32 0x40400000#32),
    unary main_cst_3 main_v12 (broadcastInDim S16x512x10000 ![] bcast_S_S16x512x10000 : (⟨S_, .f32⟩ : BufTy).Contents (Elt F) → (⟨S16x512x10000, .f32⟩ : BufTy).Contents (Elt F)),
    binary main_v11 main_v12 main_v13 (Host.powf : (⟨S16x512x10000, .f32⟩ : BufTy).Contents (Elt F) → (⟨S16x512x10000, .f32⟩ : BufTy).Contents (Elt F) → (⟨S16x512x10000, .f32⟩ : BufTy).Contents (Elt F)),
    binary main_v13 main_v8 main_v14 (mulf : (⟨S16x512x10000, .f32⟩ : BufTy).Contents (Elt F) → (⟨S16x512x10000, .f32⟩ : BufTy).Contents (Elt F) → (⟨S16x512x10000, .f32⟩ : BufTy).Contents (Elt F)),
    binary main_v14 main_v7 main_v15 (mulf : (⟨S16x512x10000, .f32⟩ : BufTy).Contents (Elt F) → (⟨S16x512x10000, .f32⟩ : BufTy).Contents (Elt F) → (⟨S16x512x10000, .f32⟩ : BufTy).Contents (Elt F)),
    nullary main_cst_4 (constant S_ .f32 0x00000000#32),
    binary main_v15 main_cst_4 main_v16 ((fun x v => Host.reduceAdd x v reducesTo_S16x512x10000_S16x512_d2 h_S_) : (⟨S16x512x10000, .f32⟩ : BufTy).Contents (Elt F) → (⟨S_, .f32⟩ : BufTy).Contents (Elt F) → (⟨S16x512, .f32⟩ : BufTy).Contents (Elt F)),
    unary main_v16 main_v17 (Host.negf : (⟨S16x512, .f32⟩ : BufTy).Contents (Elt F) → (⟨S16x512, .f32⟩ : BufTy).Contents (Elt F)),
    unary main_v1 main_v18 (uitofp .f32 : (⟨S16x512, .i1⟩ : BufTy).Contents (Elt F) → (⟨S16x512, .f32⟩ : BufTy).Contents (Elt F)),
    binary main_v17 main_v18 main_v19 (mulf : (⟨S16x512, .f32⟩ : BufTy).Contents (Elt F) → (⟨S16x512, .f32⟩ : BufTy).Contents (Elt F) → (⟨S16x512, .f32⟩ : BufTy).Contents (Elt F)),
    nullary main_cst_5 (constant S_ .f32 0x00000000#32),
    binary main_v19 main_cst_5 main_v20 ((fun x v => Host.reduceAdd x v reducesTo_S16x512_S_d0_1 h_S_) : (⟨S16x512, .f32⟩ : BufTy).Contents (Elt F) → (⟨S_, .f32⟩ : BufTy).Contents (Elt F) → (⟨S_, .f32⟩ : BufTy).Contents (Elt F)),
    nullary main_cst_6 (constant S_ .f32 0x00000000#32),
    binary main_v18 main_cst_6 main_v21 ((fun x v => Host.reduceAdd x v reducesTo_S16x512_S_d0_1 h_S_) : (⟨S16x512, .f32⟩ : BufTy).Contents (Elt F) → (⟨S_, .f32⟩ : BufTy).Contents (Elt F) → (⟨S_, .f32⟩ : BufTy).Contents (Elt F)),
    binary main_v20 main_v21 main_v22 (Host.divf : (⟨S_, .f32⟩ : BufTy).Contents (Elt F) → (⟨S_, .f32⟩ : BufTy).Contents (Elt F) → (⟨S_, .f32⟩ : BufTy).Contents (Elt F)) ]

set_option maxRecDepth 8192 in
/-- The program is the line of its operations, the calls unfolded. -/
theorem main_eqT (c : Dev nD) : main (F := F) c = seq opsT := rfl

/-- A two-operand operation over typed references whose carried types are the buffers' own is the plain operation:
    the transports are along reflexivity, whatever the function. -/
theorem tbinary_eq (a b y : Ref sig .tc) (da : a.space ≠ .host) (ua : a.isScoped = false) (db : b.space ≠ .host)
    (ub : b.isScoped = false) (dy : y.space ≠ .host) (uy : y.isScoped = false)
    (f : a.ty.Contents (Elt F) → b.ty.Contents (Elt F) → y.ty.Contents (Elt F)) :
    (TRef.binary (τ := τ) (Ta := a.ty) (Tb := b.ty) (Ty := y.ty) ⟨a, rfl, da, ua⟩ ⟨b, rfl, db, ub⟩ ⟨y, rfl, dy, uy⟩ f
        : HloOp τ sig (Elt F))
      = StableHlo.binary a b y f ⟨da, ua⟩ ⟨db, ub⟩ ⟨dy, uy⟩ := rfl

set_option maxRecDepth 8192 in
/-- Operation 4 of the line over typed references is the plain one: the transports are along reflexivity. -/
theorem op4_eq : (TRef.unary (TRef.of (T := ⟨S_, .i32⟩) main_c_0) (TRef.of (T := ⟨S_, .i32⟩) main_call0_v0) id : HloOp τ sig (Elt F)) = unary main_c_0 main_call0_v0 (id : (⟨S_, .i32⟩ : BufTy).Contents (Elt F) → (⟨S_, .i32⟩ : BufTy).Contents (Elt F)) := rfl

set_option maxRecDepth 8192 in
/-- Operation 5 of the line over typed references is the plain one: the transports are along reflexivity. -/
theorem op5_eq : (TRef.unary (TRef.of (T := ⟨S_, .i32⟩) main_call0_v0) (TRef.of (T := ⟨S16x512, .i32⟩) main_call0_v1) (broadcastInDim S16x512 ![] bcast_S_S16x512) : HloOp τ sig (Elt F)) = unary main_call0_v0 main_call0_v1 ((broadcastInDim S16x512 ![] bcast_S_S16x512) : (⟨S_, .i32⟩ : BufTy).Contents (Elt F) → (⟨S16x512, .i32⟩ : BufTy).Contents (Elt F)) := rfl

set_option maxRecDepth 8192 in
/-- Operation 6 of the line over typed references is the plain one: the transports are along reflexivity. -/
theorem op6_eq : (TRef.ternary (TRef.of (T := ⟨S16x512, .i1⟩) main_v1) (TRef.of (T := ⟨S16x512, .i32⟩) main_arg1) (TRef.of (T := ⟨S16x512, .i32⟩) main_call0_v1) (TRef.of (T := ⟨S16x512, .i32⟩) main_v2) select : HloOp τ sig (Elt F)) = ternary main_v1 main_arg1 main_call0_v1 main_v2 (select : (⟨S16x512, .i1⟩ : BufTy).Contents (Elt F) → (⟨S16x512, .i32⟩ : BufTy).Contents (Elt F) → (⟨S16x512, .i32⟩ : BufTy).Contents (Elt F) → (⟨S16x512, .i32⟩ : BufTy).Contents (Elt F)) := rfl

set_option maxRecDepth 8192 in
/-- Operation 7 of the line over typed references is the plain one: the transports are along reflexivity. -/
theorem op7_eq : (TRef.unary (TRef.of (T := ⟨S16x512, .i32⟩) main_v2) (TRef.of (T := ⟨S16x512x1, .i32⟩) main_call1_v0) (broadcastInDim S16x512x1 ![0, 1] bcast_S16x512_S16x512x1_0_1) : HloOp τ sig (Elt F)) = unary main_v2 main_call1_v0 ((broadcastInDim S16x512x1 ![0, 1] bcast_S16x512_S16x512x1_0_1) : (⟨S16x512, .i32⟩ : BufTy).Contents (Elt F) → (⟨S16x512x1, .i32⟩ : BufTy).Contents (Elt F)) := rfl

set_option maxRecDepth 8192 in
/-- Operation 8 of the line over typed references is the plain one: the transports are along reflexivity. -/
theorem op8_eq : (TRef.nullary (TRef.of (T := ⟨S1x1x10000, .i32⟩) main_call1_v1) (iotaInDim S1x1x10000 32 2) : HloOp τ sig (Elt F)) = nullary main_call1_v1 ((iotaInDim S1x1x10000 32 2) : (⟨S1x1x10000, .i32⟩ : BufTy).Contents (Elt F)) := rfl

set_option maxRecDepth 8192 in
/-- Operation 9 of the line over typed references is the plain one: the transports are along reflexivity. -/
theorem op9_eq : (TRef.unary (TRef.of (T := ⟨S16x512x1, .i32⟩) main_call1_v0) (TRef.of (T := ⟨S16x512x10000, .i32⟩) main_call1_v2) (broadcastInDim S16x512x10000 ![0, 1, 2] bcast_S16x512x1_S16x512x10000_0_1_2) : HloOp τ sig (Elt F)) = unary main_call1_v0 main_call1_v2 ((broadcastInDim S16x512x10000 ![0, 1, 2] bcast_S16x512x1_S16x512x10000_0_1_2) : (⟨S16x512x1, .i32⟩ : BufTy).Contents (Elt F) → (⟨S16x512x10000, .i32⟩ : BufTy).Contents (Elt F)) := rfl

set_option maxRecDepth 8192 in
/-- Operation 10 of the line over typed references is the plain one: the transports are along reflexivity. -/
theorem op10_eq : (TRef.unary (TRef.of (T := ⟨S1x1x10000, .i32⟩) main_call1_v1) (TRef.of (T := ⟨S16x512x10000, .i32⟩) main_call1_v3) (broadcastInDim S16x512x10000 ![0, 1, 2] bcast_S1x1x10000_S16x512x10000_0_1_2) : HloOp τ sig (Elt F)) = unary main_call1_v1 main_call1_v3 ((broadcastInDim S16x512x10000 ![0, 1, 2] bcast_S1x1x10000_S16x512x10000_0_1_2) : (⟨S1x1x10000, .i32⟩ : BufTy).Contents (Elt F) → (⟨S16x512x10000, .i32⟩ : BufTy).Contents (Elt F)) := rfl

set_option maxRecDepth 8192 in
/-- Operation 11 of the line over typed references is the plain one: the transports are along reflexivity. -/
theorem op11_eq : (TRef.binary (TRef.of (T := ⟨S16x512x10000, .i32⟩) main_call1_v2) (TRef.of (T := ⟨S16x512x10000, .i32⟩) main_call1_v3) (TRef.of (T := ⟨S16x512x10000, .i1⟩) main_call1_v4) (cmpi .eq) : HloOp τ sig (Elt F)) = binary main_call1_v2 main_call1_v3 main_call1_v4 ((cmpi .eq) : (⟨S16x512x10000, .i32⟩ : BufTy).Contents (Elt F) → (⟨S16x512x10000, .i32⟩ : BufTy).Contents (Elt F) → (⟨S16x512x10000, .i1⟩ : BufTy).Contents (Elt F)) := rfl

set_option maxRecDepth 8192 in
/-- Operation 12 of the line over typed references is the plain one: the transports are along reflexivity. -/
theorem op12_eq : (TRef.unary (TRef.of (T := ⟨S16x512x10000, .i1⟩) main_call1_v4) (TRef.of (T := ⟨S16x512x10000, .f32⟩) main_v3) (uitofp .f32) : HloOp τ sig (Elt F)) = unary main_call1_v4 main_v3 ((uitofp .f32) : (⟨S16x512x10000, .i1⟩ : BufTy).Contents (Elt F) → (⟨S16x512x10000, .f32⟩ : BufTy).Contents (Elt F)) := rfl

set_option maxRecDepth 8192 in
/-- Operation 19 of the line over typed references is the plain one: the transports are along reflexivity. -/
theorem op19_eq : (TRef.nullary (TRef.of (T := ⟨S_, .f32⟩) main_call2_cst) (constant S_ .f32 0xFF800000#32) : HloOp τ sig (Elt F)) = nullary main_call2_cst ((constant S_ .f32 0xFF800000#32) : (⟨S_, .f32⟩ : BufTy).Contents (Elt F)) := rfl

set_option maxRecDepth 8192 in
/-- Operation 20, the row maximum, likewise (by the general fact: a fold is not to be unfolded). -/
theorem op20_eq : (TRef.binary (TRef.of (T := ⟨S16x512x10000, .f32⟩) main_arg0) (TRef.of (T := ⟨S_, .f32⟩) main_call2_cst) (TRef.of (T := ⟨S16x512, .f32⟩) main_call2_v0) (fun x v => Host.reduce FloatOps.maximumf x v reducesTo_S16x512x10000_S16x512_d2 h_S_) : HloOp τ sig (Elt F)) = binary main_arg0 main_call2_cst main_call2_v0 ((fun x v => Host.reduce FloatOps.maximumf x v reducesTo_S16x512x10000_S16x512_d2 h_S_) : (⟨S16x512x10000, .f32⟩ : BufTy).Contents (Elt F) → (⟨S_, .f32⟩ : BufTy).Contents (Elt F) → (⟨S16x512, .f32⟩ : BufTy).Contents (Elt F)) :=
  tbinary_eq main_arg0 main_call2_cst main_call2_v0 (by decide) rfl (by decide) rfl (by decide) rfl
    ((fun x v => Host.reduce FloatOps.maximumf x v reducesTo_S16x512x10000_S16x512_d2 h_S_) : (⟨S16x512x10000, .f32⟩ : BufTy).Contents (Elt F) → (⟨S_, .f32⟩ : BufTy).Contents (Elt F) → (⟨S16x512, .f32⟩ : BufTy).Contents (Elt F))

set_option maxRecDepth 8192 in
/-- Operation 21 of the line over typed references is the plain one: the transports are along reflexivity. -/
theorem op21_eq : (TRef.nullary (TRef.of (T := ⟨S_, .f32⟩) main_call2_cst_0) (constant S_ .f32 0xFF800000#32) : HloOp τ sig (Elt F)) = nullary main_call2_cst_0 ((constant S_ .f32 0xFF800000#32) : (⟨S_, .f32⟩ : BufTy).Contents (Elt F)) := rfl

set_option maxRecDepth 8192 in
/-- Operation 22 of the line over typed references is the plain one: the transports are along reflexivity. -/
theorem op22_eq : (TRef.unary (TRef.of (T := ⟨S_, .f32⟩) main_call2_cst_0) (TRef.of (T := ⟨S16x512, .f32⟩) main_call2_v1) (broadcastInDim S16x512 ![] bcast_S_S16x512) : HloOp τ sig (Elt F)) = unary main_call2_cst_0 main_call2_v1 ((broadcastInDim S16x512 ![] bcast_S_S16x512) : (⟨S_, .f32⟩ : BufTy).Contents (Elt F) → (⟨S16x512, .f32⟩ : BufTy).Contents (Elt F)) := rfl

set_option maxRecDepth 8192 in
/-- Operation 23 of the line over typed references is the plain one: the transports are along reflexivity. -/
theorem op23_eq : (TRef.binary (TRef.of (T := ⟨S16x512, .f32⟩) main_call2_v1) (TRef.of (T := ⟨S16x512, .f32⟩) main_call2_v0) (TRef.of (T := ⟨S16x512, .f32⟩) main_call2_v2) maximumf : HloOp τ sig (Elt F)) = binary main_call2_v1 main_call2_v0 main_call2_v2 (maximumf : (⟨S16x512, .f32⟩ : BufTy).Contents (Elt F) → (⟨S16x512, .f32⟩ : BufTy).Contents (Elt F) → (⟨S16x512, .f32⟩ : BufTy).Contents (Elt F)) := rfl

set_option maxRecDepth 8192 in
/-- Operation 24 of the line over typed references is the plain one: the transports are along reflexivity. -/
theorem op24_eq : (TRef.unary (TRef.of (T := ⟨S16x512, .f32⟩) main_call2_v2) (TRef.of (T := ⟨S16x512x1, .f32⟩) main_call2_v3) (broadcastInDim S16x512x1 ![0, 1] bcast_S16x512_S16x512x1_0_1) : HloOp τ sig (Elt F)) = unary main_call2_v2 main_call2_v3 ((broadcastInDim S16x512x1 ![0, 1] bcast_S16x512_S16x512x1_0_1) : (⟨S16x512, .f32⟩ : BufTy).Contents (Elt F) → (⟨S16x512x1, .f32⟩ : BufTy).Contents (Elt F)) := rfl

set_option maxRecDepth 8192 in
/-- Operation 25 of the line over typed references is the plain one: the transports are along reflexivity. -/
theorem op25_eq : (TRef.unary (TRef.of (T := ⟨S16x512x1, .f32⟩) main_call2_v3) (TRef.of (T := ⟨S16x512x10000, .f32⟩) main_call2_v4) (broadcastInDim S16x512x10000 ![0, 1, 2] bcast_S16x512x1_S16x512x10000_0_1_2) : HloOp τ sig (Elt F)) = unary main_call2_v3 main_call2_v4 ((broadcastInDim S16x512x10000 ![0, 1, 2] bcast_S16x512x1_S16x512x10000_0_1_2) : (⟨S16x512x1, .f32⟩ : BufTy).Contents (Elt F) → (⟨S16x512x10000, .f32⟩ : BufTy).Contents (Elt F)) := rfl

set_option maxRecDepth 8192 in
/-- Operation 26 of the line over typed references is the plain one: the transports are along reflexivity. -/
theorem op26_eq : (TRef.binary (TRef.of (T := ⟨S16x512x10000, .f32⟩) main_arg0) (TRef.of (T := ⟨S16x512x10000, .f32⟩) main_call2_v4) (TRef.of (T := ⟨S16x512x10000, .f32⟩) main_call2_v5) subf : HloOp τ sig (Elt F)) = binary main_arg0 main_call2_v4 main_call2_v5 (subf : (⟨S16x512x10000, .f32⟩ : BufTy).Contents (Elt F) → (⟨S16x512x10000, .f32⟩ : BufTy).Contents (Elt F) → (⟨S16x512x10000, .f32⟩ : BufTy).Contents (Elt F)) := rfl

set_option maxRecDepth 8192 in
/-- Operation 27 of the line over typed references is the plain one: the transports are along reflexivity. -/
theorem op27_eq : (TRef.unary (TRef.of (T := ⟨S16x512x10000, .f32⟩) main_call2_v5) (TRef.of (T := ⟨S16x512x10000, .f32⟩) main_call2_v6) Host.exp : HloOp τ sig (Elt F)) = unary main_call2_v5 main_call2_v6 (Host.exp : (⟨S16x512x10000, .f32⟩ : BufTy).Contents (Elt F) → (⟨S16x512x10000, .f32⟩ : BufTy).Contents (Elt F)) := rfl

set_option maxRecDepth 8192 in
/-- Operation 28 of the line over typed references is the plain one: the transports are along reflexivity. -/
theorem op28_eq : (TRef.nullary (TRef.of (T := ⟨S_, .f32⟩) main_call2_cst_1) (constant S_ .f32 0x00000000#32) : HloOp τ sig (Elt F)) = nullary main_call2_cst_1 ((constant S_ .f32 0x00000000#32) : (⟨S_, .f32⟩ : BufTy).Contents (Elt F)) := rfl

set_option maxRecDepth 8192 in
/-- Operation 29 of the line over typed references is the plain one: the transports are along reflexivity. -/
theorem op29_eq : (TRef.binary (TRef.of (T := ⟨S16x512x10000, .f32⟩) main_call2_v6) (TRef.of (T := ⟨S_, .f32⟩) main_call2_cst_1) (TRef.of (T := ⟨S16x512, .f32⟩) main_call2_v7) (fun x v => Host.reduceAdd x v reducesTo_S16x512x10000_S16x512_d2 h_S_) : HloOp τ sig (Elt F)) = binary main_call2_v6 main_call2_cst_1 main_call2_v7 ((fun x v => Host.reduceAdd x v reducesTo_S16x512x10000_S16x512_d2 h_S_) : (⟨S16x512x10000, .f32⟩ : BufTy).Contents (Elt F) → (⟨S_, .f32⟩ : BufTy).Contents (Elt F) → (⟨S16x512, .f32⟩ : BufTy).Contents (Elt F)) := rfl

set_option maxRecDepth 8192 in
/-- Operation 30 of the line over typed references is the plain one: the transports are along reflexivity. -/
theorem op30_eq : (TRef.unary (TRef.of (T := ⟨S16x512, .f32⟩) main_call2_v7) (TRef.of (T := ⟨S16x512x1, .f32⟩) main_call2_v8) (broadcastInDim S16x512x1 ![0, 1] bcast_S16x512_S16x512x1_0_1) : HloOp τ sig (Elt F)) = unary main_call2_v7 main_call2_v8 ((broadcastInDim S16x512x1 ![0, 1] bcast_S16x512_S16x512x1_0_1) : (⟨S16x512, .f32⟩ : BufTy).Contents (Elt F) → (⟨S16x512x1, .f32⟩ : BufTy).Contents (Elt F)) := rfl

set_option maxRecDepth 8192 in
/-- Operation 31 of the line over typed references is the plain one: the transports are along reflexivity. -/
theorem op31_eq : (TRef.unary (TRef.of (T := ⟨S16x512x1, .f32⟩) main_call2_v8) (TRef.of (T := ⟨S16x512x1, .f32⟩) main_call2_v9) Host.log : HloOp τ sig (Elt F)) = unary main_call2_v8 main_call2_v9 (Host.log : (⟨S16x512x1, .f32⟩ : BufTy).Contents (Elt F) → (⟨S16x512x1, .f32⟩ : BufTy).Contents (Elt F)) := rfl

set_option maxRecDepth 8192 in
/-- Operation 32 of the line over typed references is the plain one: the transports are along reflexivity. -/
theorem op32_eq : (TRef.unary (TRef.of (T := ⟨S16x512x1, .f32⟩) main_call2_v9) (TRef.of (T := ⟨S16x512x10000, .f32⟩) main_call2_v10) (broadcastInDim S16x512x10000 ![0, 1, 2] bcast_S16x512x1_S16x512x10000_0_1_2) : HloOp τ sig (Elt F)) = unary main_call2_v9 main_call2_v10 ((broadcastInDim S16x512x10000 ![0, 1, 2] bcast_S16x512x1_S16x512x10000_0_1_2) : (⟨S16x512x1, .f32⟩ : BufTy).Contents (Elt F) → (⟨S16x512x10000, .f32⟩ : BufTy).Contents (Elt F)) := rfl

set_option maxRecDepth 8192 in
/-- Operation 33 of the line over typed references is the plain one: the transports are along reflexivity. -/
theorem op33_eq : (TRef.binary (TRef.of (T := ⟨S16x512x10000, .f32⟩) main_call2_v5) (TRef.of (T := ⟨S16x512x10000, .f32⟩) main_call2_v10) (TRef.of (T := ⟨S16x512x10000, .f32⟩) main_v8) subf : HloOp τ sig (Elt F)) = binary main_call2_v5 main_call2_v10 main_v8 (subf : (⟨S16x512x10000, .f32⟩ : BufTy).Contents (Elt F) → (⟨S16x512x10000, .f32⟩ : BufTy).Contents (Elt F) → (⟨S16x512x10000, .f32⟩ : BufTy).Contents (Elt F)) := rfl

/-- Lists with equal heads and equal tails are equal. -/
theorem cons_congr {α : Type} {a a' : α} {l l' : List α} (h : a = a') (hl : l = l') : a :: l = a' :: l' := by
  subst h; subst hl; rfl

set_option maxRecDepth 8192 in
/-- The two spellings of the line are one list. -/
theorem opsT_eq : (opsT : List (HloOp τ sig (Elt F))) = ops :=
  cons_congr rfl (cons_congr rfl (cons_congr rfl (cons_congr rfl (cons_congr op4_eq (cons_congr op5_eq (cons_congr op6_eq (cons_congr op7_eq (cons_congr op8_eq (cons_congr op9_eq (cons_congr op10_eq (cons_congr op11_eq (cons_congr op12_eq (cons_congr rfl (cons_congr rfl (cons_congr rfl (cons_congr rfl (cons_congr rfl (cons_congr rfl (cons_congr op19_eq (cons_congr op20_eq (cons_congr op21_eq (cons_congr op22_eq (cons_congr op23_eq (cons_congr op24_eq (cons_congr op25_eq (cons_congr op26_eq (cons_congr op27_eq (cons_congr op28_eq (cons_congr op29_eq (cons_congr op30_eq (cons_congr op31_eq (cons_congr op32_eq (cons_congr op33_eq (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (cons_congr rfl (rfl)))))))))))))))))))))))))))))))))))))))))))))))))))))

/-- The program is the line of the plain operations. -/
theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the device only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., nullary_bufs_sub .., binary_bufs_sub .., unary_bufs_sub .., unary_bufs_sub .., binary_bufs_sub .., nullary_bufs_sub .., binary_bufs_sub .., nullary_bufs_sub .., binary_bufs_sub .., binary_bufs_sub ..⟩

set_option maxRecDepth 8192 in
set_option maxHeartbeats 2000000 in
/-- On every device, for any float values, from any memory with zero counters: every weakly fair execution of the
    program terminates with the result buffer at the composed value of the two arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = Cert.ReferenceIdeal.ReadP.val_main_v22 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v22).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.RefG.lean ====
/-
  The reference computation read index by index. Token by token (a token j of the 16 × 512, its row of 10000
  class scores, its label) each stage of the reference is the quantity of the specification of that name:
  the validity bit, the safe label, the one-hot bit and the smoothed weight; the row's maximum, the shifted
  scores, the sum of their exponentials and the log-probabilities; the focal term of a class, the token's
  masked loss; and at the end the quotient of the two sums over the tokens, the mean loss.
-/
import proofs.«113265_j39968965656966_2_alg».proof.Proof.RefRead
import proofs.«113265_j39968965656966_2_alg».proof.Proof.Loss
import Idealize.ShloMosaic.Lib.ValueIdx
import Idealize.ShloMosaic.PureOps.Ideal.Laws

noncomputable section

namespace Cert.ReferenceIdeal.RefValue

open Cert.ReferenceIdeal Cert.ReferenceIdeal.ReadP Idealize.ShloMosaic Idealize.ShloMosaic.ValueIdx

/-! ## Indices -/

/-- A token's class index, cut down to the token's column index and then to the token, is the token. -/
private theorem tok_of_idx (j : S16x512.Idx) (k : Fin 10000) :
    idx_main_call1_v0 (idx_main_call1_v2 (Cert.CE.tokIdx j k)) = j :=
  funext fun a => Fin.ext (by match a with | ⟨0, _⟩ => rfl | ⟨1, _⟩ => rfl)

/-- The index a row reduction reads at token j and class k is the token's class index. -/
private theorem idx_row (j : S16x512.Idx) (k : Fin 10000) : idx_main_v16 j k = Cert.CE.tokIdx j k :=
  funext fun a => Fin.ext (by match a with | ⟨0, _⟩ => rfl | ⟨1, _⟩ => rfl | ⟨2, _⟩ => rfl)

/-- The token j with the class coordinate k put back is the token's class index. -/
private theorem lift_tok (h : S16x512x10000.Reduces [2] S16x512) (j : S16x512.Idx)
    (k : Fin (S16x512x10000.size 2)) : h.lift j k = Cert.CE.tokIdx j (⟨k.val, k.isLt⟩ : Fin 10000) := by
  funext c; apply Fin.ext
  fin_cases c <;> rfl

/-! ## The label's stages -/

/-- The comparison of the label with -1 is the validity bit. -/
private theorem valid_at (x1 : (⟨S16x512, .i32⟩ : BufTy).Contents (Elt Ideal)) (j : S16x512.Idx) :
    val_main_v1 (F := Ideal) x1 j = Cert.CE.validBit (x1 j) := by
  rw [val_main_v1_apply, val_main_v0_apply, val_main_c_apply]
  rfl

/-- The selection between the label and 0 is the safe label. -/
private theorem safe_at (x1 : (⟨S16x512, .i32⟩ : BufTy).Contents (Elt Ideal)) (j : S16x512.Idx) :
    val_main_v2 (F := Ideal) x1 j = Cert.CE.safeT (x1 j) := by
  rw [val_main_v2_apply, valid_at, val_main_call0_v1_apply, val_main_call0_v0_apply, val_main_c_0_apply]
  rfl

/-- The comparison of the safe label with the class number is the one-hot bit. -/
private theorem hot_at (x1 : (⟨S16x512, .i32⟩ : BufTy).Contents (Elt Ideal)) (j : S16x512.Idx) (k : Fin 10000) :
    val_main_call1_v4 (F := Ideal) x1 (Cert.CE.tokIdx j k) = Cert.CE.hotR (x1 j) k := by
  rw [val_main_call1_v4_apply, val_main_call1_v2_apply, val_main_call1_v0_apply, tok_of_idx, safe_at,
    val_main_call1_v3_apply, val_main_call1_v1_apply]
  rfl

/-- One-hot times (1 - s) plus s/C is the smoothed weight. -/
private theorem weight_at (x1 : (⟨S16x512, .i32⟩ : BufTy).Contents (Elt Ideal)) (j : S16x512.Idx) (k : Fin 10000) :
    val_main_v7 (F := Ideal) x1 (Cert.CE.tokIdx j k) = Cert.CE.weightR (x1 j) k := by
  rw [val_main_v7_apply, val_main_v5_apply, val_main_v3_apply, hot_at, val_main_v4_apply, val_main_cst_apply,
    val_main_v6_apply, val_main_cst_1_apply]
  rfl

/-! ## The row's stages -/

/-- The reduction by maximum over the classes, from the word of -∞, is the row's maximum. -/
private theorem rowMax0_at (x0 : (⟨S16x512x10000, .f32⟩ : BufTy).Contents (Elt Ideal)) (j : S16x512.Idx) :
    val_main_call2_v0 (F := Ideal) x0 j = Cert.CE.rowMax (fun k => x0 (Cert.CE.tokIdx j k)) := by
  have h : S16x512x10000.Reduces [2] S16x512 := by decide
  unfold val_main_call2_v0
  refine (Host.reduce_eq_fold_single (FloatOps.maximumf (F := Ideal) (φ := .f32)) x0 _ _ h _ j).trans ?_
  have hf : (x0 ∘ h.lift j) = fun k : Fin 10000 => x0 (Cert.CE.tokIdx j k) :=
    funext fun k => congrArg x0 (lift_tok h j k)
  exact congrArg (fun f => Finset.fold max (Ideal.ofBits .f32 0xFF800000#32) f (Finset.univ : Finset (Fin 10000))) hf

/-- The maximum of -∞ and the reduction is still the row's maximum. -/
private theorem rowMax_at (x0 : (⟨S16x512x10000, .f32⟩ : BufTy).Contents (Elt Ideal)) (j : S16x512.Idx) :
    val_main_call2_v2 (F := Ideal) x0 j = Cert.CE.rowMax (fun k => x0 (Cert.CE.tokIdx j k)) := by
  rw [val_main_call2_v2_apply, val_main_call2_v1_apply, val_main_call2_cst_0_apply, rowMax0_at]
  exact Cert.CE.max_neginf_rowMax _

/-- A score less the broadcast maximum is the shifted score. -/
private theorem shifted_at (x0 : (⟨S16x512x10000, .f32⟩ : BufTy).Contents (Elt Ideal)) (j : S16x512.Idx) (k : Fin 10000) :
    val_main_call2_v5 (F := Ideal) x0 (Cert.CE.tokIdx j k)
      = Cert.CE.shifted (fun k => x0 (Cert.CE.tokIdx j k)) k := by
  rw [val_main_call2_v5_apply, val_main_call2_v4_apply, val_main_call2_v3_apply]
  refine congrArg (fun m => x0 (Cert.CE.tokIdx j k) - m) ?_
  exact (congrArg (val_main_call2_v2 (F := Ideal) x0) (tok_of_idx j k)).trans (rowMax_at x0 j)

/-- Zero plus the sum over the classes of the exponentials of the shifted scores is the row's sum. -/
private theorem expSum_at (x0 : (⟨S16x512x10000, .f32⟩ : BufTy).Contents (Elt Ideal)) (j : S16x512.Idx) :
    val_main_call2_v7 (F := Ideal) x0 j = Cert.CE.expSum (fun k => x0 (Cert.CE.tokIdx j k)) := by
  rw [val_main_call2_v7_apply, val_main_call2_cst_1_apply]
  refine (congrArg (· + _) Ideal.ofBits_zero_f32).trans ?_
  rw [zero_add]
  unfold Cert.CE.expSum
  refine Finset.sum_congr rfl fun k _ => ?_
  refine (congrArg (val_main_call2_v6 (F := Ideal) x0) (idx_row j k)).trans ?_
  rw [val_main_call2_v6_apply, shifted_at]
  rfl

/-- A shifted score less the broadcast logarithm of the row's sum is the log-probability. -/
private theorem logp_at (x0 : (⟨S16x512x10000, .f32⟩ : BufTy).Contents (Elt Ideal)) (j : S16x512.Idx) (k : Fin 10000) :
    val_main_v8 (F := Ideal) x0 (Cert.CE.tokIdx j k) = Cert.CE.logp (fun k => x0 (Cert.CE.tokIdx j k)) k := by
  rw [val_main_v8_apply, shifted_at, val_main_call2_v10_apply, val_main_call2_v9_apply, val_main_call2_v8_apply]
  refine congrArg (fun m => Cert.CE.shifted (fun k => x0 (Cert.CE.tokIdx j k)) k - Ideal.log m) ?_
  exact (congrArg (val_main_call2_v7 (F := Ideal) x0) (tok_of_idx j k)).trans (expSum_at x0 j)

/-! ## The token's loss -/

/-- The power of one less the probability, times the log-probability, times the weight, is the class's term. -/
private theorem term_at (x0 : (⟨S16x512x10000, .f32⟩ : BufTy).Contents (Elt Ideal))
    (x1 : (⟨S16x512, .i32⟩ : BufTy).Contents (Elt Ideal)) (j : S16x512.Idx) (k : Fin 10000) :
    val_main_v15 (F := Ideal) x0 x1 (Cert.CE.tokIdx j k)
      = Cert.CE.termR (fun k => x0 (Cert.CE.tokIdx j k)) (x1 j) k := by
  rw [val_main_v15_apply, val_main_v14_apply, val_main_v13_apply, val_main_v11_apply, val_main_v10_apply,
    val_main_cst_2_apply, val_main_v9_apply, val_main_v12_apply, val_main_cst_3_apply, logp_at, weight_at]
  rfl

/-- The negated sum of the terms, times the validity bit as a number, is the token's masked loss. -/
private theorem perTok_at (x0 : (⟨S16x512x10000, .f32⟩ : BufTy).Contents (Elt Ideal))
    (x1 : (⟨S16x512, .i32⟩ : BufTy).Contents (Elt Ideal)) (j : S16x512.Idx) :
    val_main_v19 (F := Ideal) x0 x1 j = Cert.CE.perTokR (fun k => x0 (Cert.CE.tokIdx j k)) (x1 j) := by
  have hs : ∑ k : Fin 10000, val_main_v15 (F := Ideal) x0 x1 (idx_main_v16 j k)
      = ∑ k : Fin 10000, Cert.CE.termR (fun k => x0 (Cert.CE.tokIdx j k)) (x1 j) k :=
    Finset.sum_congr rfl fun k _ =>
      (congrArg (val_main_v15 (F := Ideal) x0 x1) (idx_row j k)).trans (term_at x0 x1 j k)
  rw [val_main_v19_apply, val_main_v17_apply, val_main_v16_apply, val_main_cst_4_apply, hs,
    val_main_v18_apply, valid_at]
  rfl

/-- The validity bit as a number is the token's mask. -/
private theorem mask_at (x1 : (⟨S16x512, .i32⟩ : BufTy).Contents (Elt Ideal)) (j : S16x512.Idx) :
    val_main_v18 (F := Ideal) x1 j = Cert.CE.maskR (x1 j) := by
  rw [val_main_v18_apply, valid_at]
  rfl

/-! ## The mean -/

/-- The reference's result is the quotient of the summed masked losses by the summed masks: the mean loss. -/
theorem ref_eq (x0 : (⟨S16x512x10000, .f32⟩ : BufTy).Contents (Elt Ideal)) (x1 : (⟨S16x512, .i32⟩ : BufTy).Contents (Elt Ideal)) (i : S_.Idx) :
    Cert.ReferenceIdeal.ReadP.val_main_v22 (F := Ideal) x0 x1 i = Cert.CE.lossR x0 x1 := by
  have hn : ∑ j : S16x512.Idx, val_main_v19 (F := Ideal) x0 x1 j
      = ∑ j : S16x512.Idx, Cert.CE.perTokR (fun k => x0 (Cert.CE.tokIdx j k)) (x1 j) :=
    Finset.sum_congr rfl fun j _ => perTok_at x0 x1 j
  have hd : ∑ j : S16x512.Idx, val_main_v18 (F := Ideal) x1 j = ∑ j : S16x512.Idx, Cert.CE.maskR (x1 j) :=
    Finset.sum_congr rfl fun j _ => mask_at x1 j
  rw [val_main_v22_apply, val_main_v20_apply, val_main_v21_apply, val_main_cst_5_apply, val_main_cst_6_apply, hn, hd]
  rfl

end Cert.ReferenceIdeal.RefValue

end
-- ==== Proof.Finite.lean ====
/-
  From the precondition "every score is finite" — the conjunction over all entries of |x| < +∞, computed as a
  reduction with `and` from the bit 1 — to the statement that every entry of the score array is a real number.
-/
import proofs.«113265_j39968965656966_2_alg».proof.Pre_finite_inputs
import proofs.«113265_j39968965656966_2_alg».proof.Proof.Gen.Pre_finite_inputs
import Idealize.ShloMosaic.PureOps.Ideal.Laws
import Idealize.ShloMosaic.Lib.ValueIdx
import Idealize.ShloMosaic.Lib.ReduceAll

noncomputable section

namespace Cert.CE.Finite

open Idealize.ShloMosaic Idealize.ShloMosaic.ValueIdx

/-- The result shape of the full reduction has a single index. -/
private instance subsingleton_idx : Subsingleton Cert.Pre_finite_inputs.S_.Idx :=
  ⟨fun _ _ => funext fun d => d.elim0⟩

/-- The word `0x7F800000` (sign 0, exponent all ones, fraction 0) denotes `+∞`. -/
private theorem ofBits_inf : Ideal.ofBits .f32 0x7F800000#32 = (⊤ : EReal) := by
  simp [Ideal.ofBits, Ideal.ieee]

/-- An extended real whose absolute value `max a (-a)` is below `+∞` is a real number:
    at `⊥` the maximum is `-⊥ = ⊤`, at `⊤` it is `⊤`, and neither is below `⊤`. -/
private theorem real_of_abs_lt_top (a : EReal) (h : max a (-a) < ⊤) : ∃ y : ℝ, a = (y : EReal) := by
  induction a using EReal.rec with
  | bot => exact absurd h (by simp)
  | coe y => exact ⟨y, rfl⟩
  | top => exact absurd h (by simp)

/-- An ordered "less than" that came out as the bit 1 is the strict inequality. -/
private theorem lt_of_cmp_olt (a b : EReal) (h : Ideal.cmp .olt a b = 1#1) : a < b := by
  by_contra hn
  simp [Ideal.cmp, hn] at h

/-- If the finiteness predicate is all ones on the scores `x` (whatever the labels), every score is a real. -/
theorem real_of_pre (x : FVec Ideal Cert.Pre_finite_inputs.S16x512x10000 .f32) (tg : IVec Cert.Pre_finite_inputs.S16x512 32)
    (h : Cert.Pre_finite_inputs.fn (F := Ideal) x tg = fun _ => 1#1) :
    ∀ i : Cert.Pre_finite_inputs.S16x512x10000.Idx, ∃ y : ℝ, x i = (y : EReal) := by
  intro i
  -- the claim at the one index of the result
  have h0 := congrFun h ValueIdx.ix0
  dsimp only [Cert.Pre_finite_inputs.fn] at h0
  -- a conjunction over all entries that is 1 has a 1 at every entry
  have h1 := Host.reduce_andi_all _ _ _ _ _ h0 i
  -- the entry at `i` compares |x i| with the constant word, which is +∞
  have h2 : Ideal.cmp .olt (max (x i) (-(x i))) (Ideal.ofBits .f32 0x7F800000#32) = 1#1 := h1
  rw [ofBits_inf] at h2
  exact real_of_abs_lt_top (x i) (lt_of_cmp_olt _ _ h2)

end Cert.CE.Finite

end
-- ==== Proof.lean ====
/-
  A Pallas kernel computing the mean, over the tokens whose label is not -1, of a label-smoothed cross entropy with a
  focal weight (1 - p)^3, against its jnp reference. Per token (a row x of 10000 scores, a label) both compute
      -(Σ_c (1 - p_c)^3 · log p_c · w_c) · mask,     log p_c = (x_c - max x) - log Σ exp (x - max x),
  with w_c = s/C + (1 - s)[c = label]; the kernel takes p_c = exp (x_c - max x) / Σ and the cube as a product, the
  reference p_c = exp (log p_c) and the cube as a power with exponent 3. The kernel sums its per-token columns on the host
  over 8192 rows, the reference over 16 × 512 tokens, and both divide by the sum of the masks.
  On the extended reals the two agree when every score is finite (the precondition): the row maximum is then a real, the
  sum of exponentials a positive real, exp (a - log S) = exp a / S, and t^3 = t · t · t; the weights and the masks agree
  outright, and the sums are the same sum re-indexed by row = 512 b + s.
  Modules: Spec (the per-token mathematics), Loss (the mean as one function of the two arrays), KernelPay and
  KernelValue (the kernel's run read as that function), RefRead, RefRun and RefG (the reference's run read as it),
  Finite (the precondition gives real scores), Reshape and LibLayout (index arithmetic of the casts).
-/
import proofs.«113265_j39968965656966_2_alg».proof.Defs
import proofs.«113265_j39968965656966_2_alg».proof.Proof.Gen.Kernel
import proofs.«113265_j39968965656966_2_alg».proof.Proof.Gen.Kernel.Skeleton
import proofs.«113265_j39968965656966_2_alg».proof.Proof.Gen.Kernel.Launch
import proofs.«113265_j39968965656966_2_alg».proof.Proof.Gen.Kernel.Points
import proofs.«113265_j39968965656966_2_alg».proof.Proof.Gen.Kernel.Frame
import proofs.«113265_j39968965656966_2_alg».proof.Proof.Gen.KernelIdeal
import proofs.«113265_j39968965656966_2_alg».proof.Proof.Gen.KernelIdeal.Skeleton
import proofs.«113265_j39968965656966_2_alg».proof.Proof.Gen.KernelIdeal.Launch
import proofs.«113265_j39968965656966_2_alg».proof.Proof.Gen.KernelIdeal.Points
import proofs.«113265_j39968965656966_2_alg».proof.Proof.Gen.KernelIdeal.Frame
import proofs.«113265_j39968965656966_2_alg».proof.Proof.Gen.ReferenceIdeal
import proofs.«113265_j39968965656966_2_alg».proof.Proof.Gen.Pre_finite_inputs
import proofs.«113265_j39968965656966_2_alg».proof.Proof.KernelValue
import proofs.«113265_j39968965656966_2_alg».proof.Proof.RefRun
import proofs.«113265_j39968965656966_2_alg».proof.Proof.RefG
import proofs.«113265_j39968965656966_2_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the arguments, with finite scores, both programs end at the mean masked loss of the
    arguments: the kernel's in the quotient spelling, the reference's in the exponential spelling, one number. -/
theorem algebraic : Cert.algebraic_KernelIdeal_ReferenceIdeal := by
  intro m ρ m' ρ' hpre hagree
  refine ⟨fun c => ((fun _ => Cert.CE.lossK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))) : Cert.KernelIdeal.S_.Idx → EReal),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  funext i
  rw [Cert.ReferenceIdeal.RefValue.ref_eq]
  exact Cert.CE.loss_eq _ _ (Cert.CE.Finite.real_of_pre _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
